-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x128 : Shape := ⟨2, ![128, 128]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x10000 .f32) (main_arg1 : FVec F S10000x128 .f32) (main_arg2 : FVec F S128x128 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x10000 : Shape := ⟨2, ![10000, 10000]⟩
abbrev S10000x128 : Shape := ⟨2, ![10000, 128]⟩
abbrev S128x128 : Shape := ⟨2, ![128, 128]⟩
abbrev S200x10000 : Shape := ⟨2, ![200, 10000]⟩
abbrev S400x128 : Shape := ⟨2, ![400, 128]⟩
abbrev S200x128 : Shape := ⟨2, ![200, 128]⟩
abbrev S200 : Shape := ⟨1, ![200]⟩
abbrev S200x1 : Shape := ⟨2, ![200, 1]⟩

abbrev nBuf : Space → Nat
  | .hbm => 4
  | .vmem => 8
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S10000x128, .f32⟩
  | .local _ .vmem, ⟨0, _⟩ => ⟨S200x10000, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S10000x128, .f32⟩
  | .local _ .vmem, ⟨5, _⟩ => ⟨S128x128, .f32⟩
  | .local _ .vmem, ⟨6, _⟩ => ⟨S400x128, .f32⟩
  | .local _ .vmem, ⟨7, _⟩ => ⟨S400x128, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S200x10000_S200x10000_0_0 : ∀ a, (![0, 0] : Fin 2 → Nat) a + S200x10000.size a ≤ S200x10000.size a
  h_S200x10000 : 0 < S200x10000.numel
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  reduces_S200x128_S200 : S200x128.Reduces [1] S200
  shapeCasts_S200_S200x1 : S200.ShapeCasts S200x1
  broadcasts_S200x1_S200x128 : S200x1.Broadcasts S200x128
  inb_S400x128_S200x128_0_0 : ∀ a, (![0, 0] : Fin 2 → Nat) a + S200x128.size a ≤ S400x128.size a
  h_S200x128 : 0 < S200x128.numel
  inb_S400x128_S200x128_200_0 : ∀ a, (![200, 0] : Fin 2 → Nat) a + S200x128.size a ≤ S400x128.size a
  dot_S200x10000_S10000x128_S200x128_1_0_0_1_n_n_wf : DotDims.WF S200x10000 S10000x128 S200x128 [1] [0] [0] [1] [] []
  dot_S200x128_S128x128_S200x128_1_1_0_0_n_n_wf : DotDims.WF S200x128 S128x128 S200x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)

variable [Facts₀]

def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x128_S200x128_1_1_0_0_n_n : DotDims S200x128 S128x128 S200x128 where
  lhsContracting := [1]
  rhsContracting := [1]
  lhsNonContracting := [0]
  rhsNonContracting := [0]
  lhsBatch := []
  rhsBatch := []
  wf := dot_S200x128_S128x128_S200x128_1_1_0_0_n_n_wf

abbrev win0_0 : Pipeline.Window sig grid0 :=
  Pipeline.Window.ofSpec (Memref.whole main_arg0) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x10000 : Shape := ⟨2, ![10000, 10000]⟩
abbrev S10000x128 : Shape := ⟨2, ![10000, 128]⟩
abbrev S128x128 : Shape := ⟨2, ![128, 128]⟩
abbrev S_ : Shape := ⟨0, ![]⟩
abbrev S10000 : Shape := ⟨1, ![10000]⟩
abbrev S10000x1 : Shape := ⟨2, ![10000, 1]⟩

abbrev nBuf : Space → Nat
  | .hbm => 51
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S10000x128, .f32⟩
  | .hbm, ⟨4, _⟩ => ⟨S128x128, .f32⟩
  | .hbm, ⟨5, _⟩ => ⟨S10000x128, .f32⟩
  | .hbm, ⟨6, _⟩ => ⟨S_, .f32⟩
  | .hbm, ⟨7, _⟩ => ⟨S10000, .f32⟩
  | .hbm, ⟨8, _⟩ => ⟨S10000x1, .f32⟩
  | .hbm, ⟨9, _⟩ => ⟨S_, .f32⟩
  | .hbm, ⟨10, _⟩ => ⟨S10000x1, .f32⟩
  | .hbm, ⟨11, _⟩ => ⟨S10000x1, .f32⟩
  | .hbm, ⟨12, _⟩ => ⟨S_, .i32⟩
  | .hbm, ⟨13, _⟩ => ⟨S_, .f32⟩
  | .hbm, ⟨14, _⟩ => ⟨S10000, .f32⟩
  | .hbm, ⟨15, _⟩ => ⟨S10000x1, .f32⟩
  | .hbm, ⟨16, _⟩ => ⟨S_, .f32⟩
  | .hbm, ⟨17, _⟩ => ⟨S10000x1, .f32⟩
  | .hbm, ⟨18, _⟩ => ⟨S10000x1, .f32⟩
  | .hbm, ⟨19, _⟩ => ⟨S10000x128, .f32⟩
  | .hbm, ⟨20, _⟩ => ⟨S10000x128, .f32⟩
  | .hbm, ⟨21, _⟩ => ⟨S10000x128, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S10000, .f32⟩
  | .hbm, ⟨27, _⟩ => ⟨S10000x1, .f32⟩
  | .hbm, ⟨28, _⟩ => ⟨S10000x1, .f32⟩
  | .hbm, ⟨29, _⟩ => ⟨S10000x1, .f32⟩
  | .hbm, ⟨30, _⟩ => ⟨S_, .f32⟩
  | .hbm, ⟨31, _⟩ => ⟨S_, .i1⟩
  | .hbm, ⟨32, _⟩ => ⟨S_, .f32⟩
  | .hbm, ⟨33, _⟩ => ⟨S_, .f32⟩
  | .hbm, ⟨34, _⟩ => ⟨S10000x1, .f32⟩
  | .hbm, ⟨35, _⟩ => ⟨S10000x1, .f32⟩
  | .hbm, ⟨36, _⟩ => ⟨S10000x128, .f32⟩
  | .hbm, ⟨37, _⟩ => ⟨S10000x128, .f32⟩
  | .hbm, ⟨38, _⟩ => ⟨S_, .f32⟩
  | .hbm, ⟨39, _⟩ => ⟨S10000x1, .f32⟩
  | .hbm, ⟨40, _⟩ => ⟨S10000x1, .f32⟩
  | .hbm, ⟨41, _⟩ => ⟨S10000x1, .f32⟩
  | .hbm, ⟨42, _⟩ => ⟨S10000x128, .f32⟩
  | .hbm, ⟨43, _⟩ => ⟨S10000x128, .f32⟩
  | .hbm, ⟨44, _⟩ => ⟨S_, .f32⟩
  | .hbm, ⟨45, _⟩ => ⟨S10000x128, .f32⟩
  | .hbm, ⟨46, _⟩ => ⟨S10000x128, .i1⟩
  | .hbm, ⟨47, _⟩ => ⟨S_, .f32⟩
  | .hbm, ⟨48, _⟩ => ⟨S10000x128, .f32⟩
  | .hbm, ⟨49, _⟩ => ⟨S10000x128, .f32⟩
  | .hbm, ⟨50, _⟩ => ⟨S10000x128, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_cst_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_cst_1 : Ref sig .tc := ⟨.hbm, 23, rfl⟩
abbrev main_call0_v8 : Ref sig .tc := ⟨.hbm, 24, rfl⟩
abbrev main_call0_cst_2 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_cst_3 : Ref sig .tc := ⟨.hbm, 30, rfl⟩
abbrev main_call0_v13 : Ref sig .tc := ⟨.hbm, 31, rfl⟩
abbrev main_call0_cst_4 : Ref sig .tc := ⟨.hbm, 32, rfl⟩
abbrev main_call0_call0_v0 : Ref sig .tc := ⟨.hbm, 33, rfl⟩
abbrev main_call0_call0_v1 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_cst_1 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_cst_2 : Ref sig .tc := ⟨.hbm, 44, rfl⟩
abbrev main_v15 : Ref sig .tc := ⟨.hbm, 45, rfl⟩
abbrev main_v16 : Ref sig .tc := ⟨.hbm, 46, rfl⟩
abbrev main_cst_3 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩

abbrev nD : Nat := 1
abbrev τ : Topo := Topo.v7x

variable {F : FTy → Type} [FloatOps F]

class Facts₀ : Prop where
  transposes_S128x128_S128x128_1_0 : S128x128.Transposes [1, 0] S128x128
  reducesTo_S10000x128_S10000_d1 : S10000x128.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  bcast_S_S10000x128 : S_.BroadcastsInDim S10000x128 (![] : Fin 0 → Fin S10000x128.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.BitsBody.lean ====
import proofs.«144229_g49108656063244_cont_8to1_c_419_7_alg».proof.Proof.Gen.Kernel.Launch
import proofs.«144229_g49108656063244_cont_8to1_c_419_7_alg».proof.Proof.Gen.Kernel.Skeleton
import proofs.«144229_g49108656063244_cont_8to1_c_419_7_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- The whole of a 200-row block of the adjacency matrix. -/
abbrev rA : Rect S200x10000 := Rect.unit (s := S200x10000) ![0, 0] S200x10000.size inb_S200x10000_S200x10000_0_0
/-- The whole feature matrix. -/
abbrev rX : Rect S10000x128 := Rect.unit (s := S10000x128) ![0, 0] S10000x128.size inb_S10000x128_S10000x128_0_0
/-- The whole weight matrix. -/
abbrev rW : Rect S128x128 := Rect.unit (s := S128x128) ![0, 0] S128x128.size inb_S128x128_S128x128_0_0
/-- The upper 200 rows of the 400-row output block. -/
abbrev rTop : Rect S400x128 := Rect.unit (s := S400x128) ![0, 0] S200x128.size inb_S400x128_S200x128_0_0
/-- The lower 200 rows of the 400-row output block. -/
abbrev rBot : Rect S400x128 := Rect.unit (s := S400x128) ![200, 0] S200x128.size inb_S400x128_S200x128_200_0

/-- What the body leaves in the output block, from the two row blocks of the adjacency matrix, the
    features and the weights: the lower half's rows from the second row block, the upper half's from the first. -/
def outBlock (a0 a1 : Vec F S200x10000 .f32) (x : Vec F S10000x128 .f32) (w : Vec F S128x128 .f32) : Vec F S400x128 .f32 :=
  View.canon [⟨rBot, k0_pay1 (k0_pay3 (View.ld a1 rA) (View.ld x rX) (View.ld w rW)) (k0_pay4 (View.ld a1 rA) (View.ld x rX) (View.ld w rW)) (Scalar.ofBits .f32 0x43000000#32)⟩,
    ⟨rTop, k0_pay2 (View.ld a0 rA) (View.ld x rX) (View.ld w rW)⟩]

/-- The two halves tile the output block, so they cover it. -/
theorem cover_out (p0 p1 : Vec F S200x128 .f32) (y : S400x128.Idx) :
    ∃ pc ∈ ([⟨rBot, p0⟩, ⟨rTop, p1⟩] : List (View.Piece (Elt F) S400x128 .f32)), y ∈ pc.1.set :=
  View.cover_of_tiled [⟨rBot, p0⟩, ⟨rTop, p1⟩] S200x128.size (by rfl) y

set_option maxHeartbeats 1000000 in
/-- The body on whole staging buffers: the four inputs stay as they were, the output block ends at `outBlock`. -/
theorem sound_kernel (c : Dev nD) (E : Set ℕ) (i : grid0.Coords)
    (arg1 : Memref sig .tc .vmem S200x10000 .f32) (harg1 : arg1.IsWhole) (arg2 : Memref sig .tc .vmem S200x10000 .f32) (harg2 : arg2.IsWhole)
    (arg3 : Memref sig .tc .vmem S10000x128 .f32) (harg3 : arg3.IsWhole) (arg4 : Memref sig .tc .vmem S128x128 .f32) (harg4 : arg4.IsWhole)
    (arg5 : Memref sig .tc .vmem S400x128 .f32) (harg5 : arg5.IsWhole)
    (a0 a1 : Vec F S200x10000 .f32) (x : Vec F S10000x128 .f32) (w : Vec F S128x128 .f32) (K : PUnit → sProp 𝕄) :
    iprop(owns (c : Thread nD τ) arg1 fullShare a0 ∗ owns (c : Thread nD τ) arg2 fullShare a1 ∗ owns (c : Thread nD τ) arg3 fullShare x
        ∗ owns (c : Thread nD τ) arg4 fullShare w ∗ (∃ d, owns (c : Thread nD τ) arg5 fullShare d)
        ∗ (iprop(owns (c : Thread nD τ) arg1 fullShare a0 ∗ owns (c : Thread nD τ) arg2 fullShare a1 ∗ owns (c : Thread nD τ) arg3 fullShare x
            ∗ owns (c : Thread nD τ) arg4 fullShare w ∗ owns (c : Thread nD τ) arg5 fullShare (outBlock a0 a1 x w)) -∗ K ⟨⟩))
      ⊢ wp frame (wpE (defs₀ (F := F)) Variants.none c none) E (cc0__fused_graph_conv i arg1 harg1 arg2 harg2 arg3 harg3 arg4 harg4 arg5 harg5) K := by
  simp only [cc0__fused_graph_conv_eq_skeleton]; unfold cc0__fused_graph_conv_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _ _)

end Cert.Kernel.Hand

end
-- ==== Proof.BitsData.lean ====
import proofs.«144229_g49108656063244_cont_8to1_c_419_7_alg».proof.Proof.BitsBody
import proofs.«144229_g49108656063244_cont_8to1_c_419_7_alg».proof.Proof.Gen.Kernel.Launch
import proofs.«144229_g49108656063244_cont_8to1_c_419_7_alg».proof.Proof.Gen.Kernel.Skeleton
import proofs.«144229_g49108656063244_cont_8to1_c_419_7_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its one region -/

/-- A core's buffers when the region is entered: as launched (the program is the region alone). -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: where it is not
    fetched its block index has not moved, so the block the previous point left is this point's. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: where it is not
    fetched its block index has not moved, so the block the previous point left is this point's. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: where it is not
    fetched its block index has not moved, so the block the previous point left is this point's. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: where it is not
    fetched its block index has not moved, so the block the previous point left is this point's. -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The proof data of the one pipeline on core `c`. The arrays are as the region finds them; after the body at point
    `t` each input buffer holds its block and the output buffer the body's result of the four input blocks. The two
    windows on the adjacency matrix each hold one half of that array's share: both only read it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock (iblk m c 0 t) (iblk m c 1 t) (iblk m c 2 t) (iblk m c 3 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = outBlock (iblk m c 0 t) (iblk m c 1 t) (iblk m c 2 t) (iblk m c 3 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant and
    the core's tallies pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.BitsRun.lean ====
import proofs.«144229_g49108656063244_cont_8to1_c_419_7_alg».proof.Proof.BitsData
import proofs.«144229_g49108656063244_cont_8to1_c_419_7_alg».proof.Proof.Gen.Kernel.Launch
import proofs.«144229_g49108656063244_cont_8to1_c_419_7_alg».proof.Proof.Gen.Kernel.Skeleton
import proofs.«144229_g49108656063244_cont_8to1_c_419_7_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at entry -/

/-- The buffers behind the windows' arrays are four: the adjacency matrix (behind two windows), the features, the
    weights and the result. -/
theorem arr_image : (Finset.univ.image (Pipeline.arrRef spec0) : Finset (Ref sig .tc)) = {main_arg0, main_arg1, main_arg2, main_v0} := by
  decide

/-- The four buffers whole at the full share make the five windows' arrays at entry: the adjacency matrix's full
    share is cut into its two halves, one for each of the two windows that read it; the others go over whole. -/
theorem arrBufs_eq (c : Dev nD) :
    (Pipeline.arrBufs (Ix := Unit) (Name := ℕ) (U := UR sig nD τ) (Lvl := ℕ) spec0 c (V m c) : sProp 𝕄)
      = iprop((((c : Thread nD τ).loc main_arg0) ↦{fullShare} V m c main_arg0) ∗ (((c : Thread nD τ).loc main_arg1) ↦{fullShare} V m c main_arg1)
          ∗ (((c : Thread nD τ).loc main_arg2) ↦{fullShare} V m c main_arg2) ∗ (((c : Thread nD τ).loc main_v0) ↦{fullShare} V m c main_v0)) := by
  unfold Pipeline.arrBufs
  rw [arr_image, BI.bigSep_insert (by decide), BI.bigSep_insert (by decide), BI.bigSep_insert (by decide), BI.bigSep_singleton]
  rfl

theorem Phi_eq (c : Dev nD) (t : Fin (cfg0.N + 1)) :
    (dats m 0 c).Φ t = Pipeline.scopedRest (Ix := Unit) (Name := ℕ) (U := UR sig nD τ) (Lvl := ℕ) (Val := Elt F) spec0 c := by
  dsimp only [dats]

theorem arrays_split (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  iintro ⟨H0, H1, H2, H3⟩
  ihave ⟨H0a, H0b⟩ := (pointsTo_share (PosShare.mem_left_op_right fullShare)).1 $$ H0
  isplitl [H0a]
  · rw [(arr_whole0 0).set_eq_univ]; iexact H0a
  isplitl [H0b]
  · rw [(arr_whole0 1).set_eq_univ]; iexact H0b
  isplitl [H1]
  · rw [(arr_whole0 2).set_eq_univ]; iexact H1
  isplitl [H2]
  · rw [(arr_whole0 3).set_eq_univ]; iexact H2
  · rw [(arr_whole0 4).set_eq_univ]; iexact H3

/-! ## The run -/

set_option backward.isDefEq.respectTransparency.types false in
/-- Every weakly fair execution of the program terminates, without a fault, and leaves each window's array at the
    entry contents overwritten by the blocks the body left at the points that write it back. -/
theorem run_main : θ_run defs (onTc (τ := τ) (main (F := F))) ⟨m, fun _ => 0, ρ⟩ (fun r => ∀ c : Dev nD,
      ∀ w, r.2.mem (((cfgs 0).spec w).arr.view.loc (c.tc : Thread nD τ)) = (dats m 0 c).arrAt w (cfgs 0).N) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := arrays_split m)
    (X := fun _ => iprop(emp)) (Y := fun _ => iprop(emp)) (Z := fun _ => iprop(emp))
    (hX := fun c => by iintro -; isplitl [] <;> iempintro)
    (hin := fun c => by rw [Phi_eq]; iintro ⟨-, H⟩; iexact H)
    (hout := fun c => by rw [Phi_eq]; iintro H; isplitr; · iempintro
                         iexact H)
    (QY := fun _ _ => True)
    (hY := fun c s' => by iintro ⟨-, -, HSI⟩; imodintro; isplitr; · ipureintro; trivial
                          iexact HSI)
    (hQ := fun s h c => (h c).1)

/-! ## The frame, and the result named -/

/-- The three argument arrays end as they were launched: each is an input window's array, never written back. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c 0).trans (((dats m 0 c).arrAt_in 0 rfl _).trans (A_eq m c 0)),
      (h c 2).trans (((dats m 0 c).arrAt_in 2 rfl _).trans (A_eq m c 2)),
      (h c 3).trans (((dats m 0 c).arrAt_in 3 rfl _).trans (A_eq m c 3))⟩) (run_main m ρ)

/-- The same run with the result array named: the entry contents overwritten block by block by what the body left. -/
theorem run_named : θ_run defs (onTc (τ := τ) (main (F := F))) ⟨m, fun _ => 0, ρ⟩ (fun r => ∀ c : Dev nD,
      r.2.mem ((c.tc : Thread nD τ).loc main_v0) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨h c 4, (h c 0).trans (((dats m 0 c).arrAt_in 0 rfl _).trans (A_eq m c 0)),
      (h c 2).trans (((dats m 0 c).arrAt_in 2 rfl _).trans (A_eq m c 2)),
      (h c 3).trans (((dats m 0 c).arrAt_in 3 rfl _).trans (A_eq m c 3))⟩) (run_main m ρ)

end Cert.Kernel.Hand

end
-- ==== Proof.IdealBody.lean ====
import proofs.«144229_g49108656063244_cont_8to1_c_419_7_alg».proof.Proof.Gen.KernelIdeal.Launch
import proofs.«144229_g49108656063244_cont_8to1_c_419_7_alg».proof.Proof.Gen.KernelIdeal.Skeleton
import proofs.«144229_g49108656063244_cont_8to1_c_419_7_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- The whole of a 200-row block of the adjacency matrix. -/
abbrev rA : Rect S200x10000 := Rect.unit (s := S200x10000) ![0, 0] S200x10000.size inb_S200x10000_S200x10000_0_0
/-- The whole feature matrix. -/
abbrev rX : Rect S10000x128 := Rect.unit (s := S10000x128) ![0, 0] S10000x128.size inb_S10000x128_S10000x128_0_0
/-- The whole weight matrix. -/
abbrev rW : Rect S128x128 := Rect.unit (s := S128x128) ![0, 0] S128x128.size inb_S128x128_S128x128_0_0
/-- The upper 200 rows of the 400-row output block. -/
abbrev rTop : Rect S400x128 := Rect.unit (s := S400x128) ![0, 0] S200x128.size inb_S400x128_S200x128_0_0
/-- The lower 200 rows of the 400-row output block. -/
abbrev rBot : Rect S400x128 := Rect.unit (s := S400x128) ![200, 0] S200x128.size inb_S400x128_S200x128_200_0

/-- What the body leaves in the output block, from the two row blocks of the adjacency matrix, the
    features and the weights: the lower half's rows from the second row block, the upper half's from the first. -/
def outBlock (a0 a1 : Vec F S200x10000 .f32) (x : Vec F S10000x128 .f32) (w : Vec F S128x128 .f32) : Vec F S400x128 .f32 :=
  View.canon [⟨rBot, k0_pay1 (k0_pay3 (View.ld a1 rA) (View.ld x rX) (View.ld w rW)) (k0_pay4 (View.ld a1 rA) (View.ld x rX) (View.ld w rW)) (Scalar.ofBits .f32 0x43000000#32)⟩,
    ⟨rTop, k0_pay2 (View.ld a0 rA) (View.ld x rX) (View.ld w rW)⟩]

/-- The two halves tile the output block, so they cover it. -/
theorem cover_out (p0 p1 : Vec F S200x128 .f32) (y : S400x128.Idx) :
    ∃ pc ∈ ([⟨rBot, p0⟩, ⟨rTop, p1⟩] : List (View.Piece (Elt F) S400x128 .f32)), y ∈ pc.1.set :=
  View.cover_of_tiled [⟨rBot, p0⟩, ⟨rTop, p1⟩] S200x128.size (by rfl) y

set_option maxHeartbeats 1000000 in
/-- The body on whole staging buffers: the four inputs stay as they were, the output block ends at `outBlock`. -/
theorem sound_kernel (c : Dev nD) (E : Set ℕ) (i : grid0.Coords)
    (arg1 : Memref sig .tc .vmem S200x10000 .f32) (harg1 : arg1.IsWhole) (arg2 : Memref sig .tc .vmem S200x10000 .f32) (harg2 : arg2.IsWhole)
    (arg3 : Memref sig .tc .vmem S10000x128 .f32) (harg3 : arg3.IsWhole) (arg4 : Memref sig .tc .vmem S128x128 .f32) (harg4 : arg4.IsWhole)
    (arg5 : Memref sig .tc .vmem S400x128 .f32) (harg5 : arg5.IsWhole)
    (a0 a1 : Vec F S200x10000 .f32) (x : Vec F S10000x128 .f32) (w : Vec F S128x128 .f32) (K : PUnit → sProp 𝕄) :
    iprop(owns (c : Thread nD τ) arg1 fullShare a0 ∗ owns (c : Thread nD τ) arg2 fullShare a1 ∗ owns (c : Thread nD τ) arg3 fullShare x
        ∗ owns (c : Thread nD τ) arg4 fullShare w ∗ (∃ d, owns (c : Thread nD τ) arg5 fullShare d)
        ∗ (iprop(owns (c : Thread nD τ) arg1 fullShare a0 ∗ owns (c : Thread nD τ) arg2 fullShare a1 ∗ owns (c : Thread nD τ) arg3 fullShare x
            ∗ owns (c : Thread nD τ) arg4 fullShare w ∗ owns (c : Thread nD τ) arg5 fullShare (outBlock a0 a1 x w)) -∗ K ⟨⟩))
      ⊢ wp frame (wpE (defs₀ (F := F)) Variants.none c none) E (cc0__fused_graph_conv i arg1 harg1 arg2 harg2 arg3 harg3 arg4 harg4 arg5 harg5) K := by
  simp only [cc0__fused_graph_conv_eq_skeleton]; unfold cc0__fused_graph_conv_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _ _)

end Cert.KernelIdeal.Hand

end
-- ==== Proof.IdealData.lean ====
import proofs.«144229_g49108656063244_cont_8to1_c_419_7_alg».proof.Proof.IdealBody
import proofs.«144229_g49108656063244_cont_8to1_c_419_7_alg».proof.Proof.Gen.KernelIdeal.Launch
import proofs.«144229_g49108656063244_cont_8to1_c_419_7_alg».proof.Proof.Gen.KernelIdeal.Skeleton
import proofs.«144229_g49108656063244_cont_8to1_c_419_7_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its one region -/

/-- A core's buffers when the region is entered: as launched (the program is the region alone). -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: where it is not
    fetched its block index has not moved, so the block the previous point left is this point's. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: where it is not
    fetched its block index has not moved, so the block the previous point left is this point's. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: where it is not
    fetched its block index has not moved, so the block the previous point left is this point's. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: where it is not
    fetched its block index has not moved, so the block the previous point left is this point's. -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The proof data of the one pipeline on core `c`. The arrays are as the region finds them; after the body at point
    `t` each input buffer holds its block and the output buffer the body's result of the four input blocks. The two
    windows on the adjacency matrix each hold one half of that array's share: both only read it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock (iblk m c 0 t) (iblk m c 1 t) (iblk m c 2 t) (iblk m c 3 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = outBlock (iblk m c 0 t) (iblk m c 1 t) (iblk m c 2 t) (iblk m c 3 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant and
    the core's tallies pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.IdealRun.lean ====
import proofs.«144229_g49108656063244_cont_8to1_c_419_7_alg».proof.Proof.IdealData
import proofs.«144229_g49108656063244_cont_8to1_c_419_7_alg».proof.Proof.Gen.KernelIdeal.Launch
import proofs.«144229_g49108656063244_cont_8to1_c_419_7_alg».proof.Proof.Gen.KernelIdeal.Skeleton
import proofs.«144229_g49108656063244_cont_8to1_c_419_7_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at entry -/

/-- The buffers behind the windows' arrays are four: the adjacency matrix (behind two windows), the features, the
    weights and the result. -/
theorem arr_image : (Finset.univ.image (Pipeline.arrRef spec0) : Finset (Ref sig .tc)) = {main_arg0, main_arg1, main_arg2, main_v0} := by
  decide

/-- The four buffers whole at the full share make the five windows' arrays at entry: the adjacency matrix's full
    share is cut into its two halves, one for each of the two windows that read it; the others go over whole. -/
theorem arrBufs_eq (c : Dev nD) :
    (Pipeline.arrBufs (Ix := Unit) (Name := ℕ) (U := UR sig nD τ) (Lvl := ℕ) spec0 c (V m c) : sProp 𝕄)
      = iprop((((c : Thread nD τ).loc main_arg0) ↦{fullShare} V m c main_arg0) ∗ (((c : Thread nD τ).loc main_arg1) ↦{fullShare} V m c main_arg1)
          ∗ (((c : Thread nD τ).loc main_arg2) ↦{fullShare} V m c main_arg2) ∗ (((c : Thread nD τ).loc main_v0) ↦{fullShare} V m c main_v0)) := by
  unfold Pipeline.arrBufs
  rw [arr_image, BI.bigSep_insert (by decide), BI.bigSep_insert (by decide), BI.bigSep_insert (by decide), BI.bigSep_singleton]
  rfl

theorem Phi_eq (c : Dev nD) (t : Fin (cfg0.N + 1)) :
    (dats m 0 c).Φ t = Pipeline.scopedRest (Ix := Unit) (Name := ℕ) (U := UR sig nD τ) (Lvl := ℕ) (Val := Elt F) spec0 c := by
  dsimp only [dats]

theorem arrays_split (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  iintro ⟨H0, H1, H2, H3⟩
  ihave ⟨H0a, H0b⟩ := (pointsTo_share (PosShare.mem_left_op_right fullShare)).1 $$ H0
  isplitl [H0a]
  · rw [(arr_whole0 0).set_eq_univ]; iexact H0a
  isplitl [H0b]
  · rw [(arr_whole0 1).set_eq_univ]; iexact H0b
  isplitl [H1]
  · rw [(arr_whole0 2).set_eq_univ]; iexact H1
  isplitl [H2]
  · rw [(arr_whole0 3).set_eq_univ]; iexact H2
  · rw [(arr_whole0 4).set_eq_univ]; iexact H3

/-! ## The run -/

set_option backward.isDefEq.respectTransparency.types false in
/-- Every weakly fair execution of the program terminates, without a fault, and leaves each window's array at the
    entry contents overwritten by the blocks the body left at the points that write it back. -/
theorem run_main : θ_run defs (onTc (τ := τ) (main (F := F))) ⟨m, fun _ => 0, ρ⟩ (fun r => ∀ c : Dev nD,
      ∀ w, r.2.mem (((cfgs 0).spec w).arr.view.loc (c.tc : Thread nD τ)) = (dats m 0 c).arrAt w (cfgs 0).N) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := arrays_split m)
    (X := fun _ => iprop(emp)) (Y := fun _ => iprop(emp)) (Z := fun _ => iprop(emp))
    (hX := fun c => by iintro -; isplitl [] <;> iempintro)
    (hin := fun c => by rw [Phi_eq]; iintro ⟨-, H⟩; iexact H)
    (hout := fun c => by rw [Phi_eq]; iintro H; isplitr; · iempintro
                         iexact H)
    (QY := fun _ _ => True)
    (hY := fun c s' => by iintro ⟨-, -, HSI⟩; imodintro; isplitr; · ipureintro; trivial
                          iexact HSI)
    (hQ := fun s h c => (h c).1)

/-! ## The frame, and the result named -/

/-- The three argument arrays end as they were launched: each is an input window's array, never written back. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c 0).trans (((dats m 0 c).arrAt_in 0 rfl _).trans (A_eq m c 0)),
      (h c 2).trans (((dats m 0 c).arrAt_in 2 rfl _).trans (A_eq m c 2)),
      (h c 3).trans (((dats m 0 c).arrAt_in 3 rfl _).trans (A_eq m c 3))⟩) (run_main m ρ)

/-- The same run with the result array named: the entry contents overwritten block by block by what the body left. -/
theorem run_named : θ_run defs (onTc (τ := τ) (main (F := F))) ⟨m, fun _ => 0, ρ⟩ (fun r => ∀ c : Dev nD,
      r.2.mem ((c.tc : Thread nD τ).loc main_v0) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨h c 4, (h c 0).trans (((dats m 0 c).arrAt_in 0 rfl _).trans (A_eq m c 0)),
      (h c 2).trans (((dats m 0 c).arrAt_in 2 rfl _).trans (A_eq m c 2)),
      (h c 3).trans (((dats m 0 c).arrAt_in 3 rfl _).trans (A_eq m c 3))⟩) (run_main m ρ)

end Cert.KernelIdeal.Hand

end
-- ==== Proof.Spec.lean ====
/-
  The graph-convolution layer as one function of its three arguments, entry by entry, on the extended reals.

  For an adjacency matrix A (N × N), features X (N × d) and weights W (d × d), row r of the layer's output depends on
  row r of A alone:
  * the projected row `proj A X W r` has entries  o_j = Σ_c (Σ_k A(r,k) · X(k,c)) · W(j,c)   (the row of (A·X)·Wᵀ);
  * the row is then normalised: with  μ = (Σ_k o_k) / d  and  v = (Σ_k (o_k − μ)²) / d,
      the kernel's form is     (o_j − μ) · rsqrt (v + ε)          (`normK`),
      the reference's form is  (o_j − μ) / sqrt  (v + ε)          (`normR`);
  * and passed through the leaky rectifier  z ↦ z if z ≥ 0, else s · z  (`leaky`).
  The constants d = 128, ε and s are kept as the f32 words both programs print, never evaluated here.
-/
import Idealize.ShloMosaic.PureOps.Ideal
import Idealize.ShloMosaic.Lib.ValueIdx

noncomputable section

open scoped BigOperators

namespace Cert.GraphConv

open Idealize.ShloMosaic Idealize.ShloMosaic.ValueIdx

/-- The row length 128, as the f32 word both programs divide by. -/
abbrev wCount : EReal := Ideal.ofBits .f32 0x43000000#32
/-- The variance offset ε (the f32 nearest 1e-5). -/
abbrev wEps : EReal := Ideal.ofBits .f32 0x3727C5AC#32
/-- The rectifier's slope s (the f32 nearest 0.01). -/
abbrev wSlope : EReal := Ideal.ofBits .f32 0x3C23D70A#32
/-- Zero, as its f32 word. -/
abbrev wZero : EReal := Ideal.ofBits .f32 0x00000000#32

/-- The leaky rectifier: z where z ≥ 0, s · z elsewhere. -/
def leaky (z : EReal) : EReal := Scalar.select (Ideal.cmp .oge z wZero) z (wSlope * z)

/-- The mean of a row. -/
def rowMean {n : ℕ} (y : Fin n → EReal) : EReal := Ideal.div (∑ k : Fin n, y k) wCount

/-- The mean of the squared deviations of a row from its mean. -/
def rowVar {n : ℕ} (y : Fin n → EReal) : EReal :=
  Ideal.div (∑ k : Fin n, (y k - rowMean y) * (y k - rowMean y)) wCount

/-- The kernel's normalised and rectified row: the deviation TIMES the reciprocal square root. -/
def normK {n : ℕ} (y : Fin n → EReal) (j : Fin n) : EReal :=
  leaky ((y j - rowMean y) * Ideal.rsqrt (rowVar y + wEps))

/-- The reference's normalised and rectified row: the deviation DIVIDED BY the square root. -/
def normR {n : ℕ} (y : Fin n → EReal) (j : Fin n) : EReal :=
  leaky (Ideal.div (y j - rowMean y) (Ideal.sqrt (rowVar y + wEps)))

/-- Row r of (A·X)·Wᵀ. -/
def proj (A : FVec Ideal ⟨2, ![10000, 10000]⟩ .f32) (X : FVec Ideal ⟨2, ![10000, 128]⟩ .f32)
    (W : FVec Ideal ⟨2, ![128, 128]⟩ .f32) (r : Fin 10000) (j : Fin 128) : EReal :=
  ∑ c : Fin 128, (∑ k : Fin 10000, A (ix2 r k) * X (ix2 k c)) * W (ix2 j c)

/-- The layer's output as the kernel computes it. -/
def outK (A : FVec Ideal ⟨2, ![10000, 10000]⟩ .f32) (X : FVec Ideal ⟨2, ![10000, 128]⟩ .f32)
    (W : FVec Ideal ⟨2, ![128, 128]⟩ .f32) : FVec Ideal ⟨2, ![10000, 128]⟩ .f32 :=
  fun i => normK (proj A X W ⟨(i 0).val, idx2_lt0 i⟩) ⟨(i 1).val, idx2_lt1 i⟩

/-- The layer's output as the reference computes it. -/
def outR (A : FVec Ideal ⟨2, ![10000, 10000]⟩ .f32) (X : FVec Ideal ⟨2, ![10000, 128]⟩ .f32)
    (W : FVec Ideal ⟨2, ![128, 128]⟩ .f32) : FVec Ideal ⟨2, ![10000, 128]⟩ .f32 :=
  fun i => normR (proj A X W ⟨(i 0).val, idx2_lt0 i⟩) ⟨(i 1).val, idx2_lt1 i⟩

theorem outK_apply (A : FVec Ideal ⟨2, ![10000, 10000]⟩ .f32) (X : FVec Ideal ⟨2, ![10000, 128]⟩ .f32)
    (W : FVec Ideal ⟨2, ![128, 128]⟩ .f32) (r : Fin 10000) (j : Fin 128) :
    outK A X W (ix2 r j) = normK (proj A X W r) j := rfl

theorem outR_apply (A : FVec Ideal ⟨2, ![10000, 10000]⟩ .f32) (X : FVec Ideal ⟨2, ![10000, 128]⟩ .f32)
    (W : FVec Ideal ⟨2, ![128, 128]⟩ .f32) (r : Fin 10000) (j : Fin 128) :
    outR A X W (ix2 r j) = normR (proj A X W r) j := rfl

end Cert.GraphConv

end
-- ==== Proof.LibColumnCast.lean ====
/-
  A vector cast to a column.

  An `[a]` array cast to `[a, 1]` (what a row reduction that keeps its axis produces) has the operand's entries down
  its one column: the entry at `(i, u)` is the operand's entry at `i`, whatever the unit coordinate `u`. Both indices
  have the same row-major position, `i = i · 1 + u` with `u = 0`.
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.LibColumnBroadcast.lean ====
/-
  One column broadcast over many.

  An `[a, 1]` array broadcast to `[a, b]` repeats its one column: the entry at `(p, c)` is the operand's entry at
  `(p, 0)`, whatever the column `c`. (The row form, `[1, b]` to `[a, b]`, is the library's
  `broadcastTo_1b_ab_apply`; this is its transpose.)
-/
import Idealize.ShloMosaic.Lib.Pipeline.Value
import Idealize.ShloMosaic.Lib.ValueIdx

namespace Cert.LibColumnBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.LibRowWise.lean ====
/-
  Operations that act on each row of an [m, n] array by itself, read at an entry, on the extended reals.

  For an array Z with m rows and n columns:
  * a length-n vector laid out as a [1, n] row and repeated down the m rows reads, at (a, b), the vector at b
    (`biasRow_apply`); a length-m vector laid out as an [m, 1] column and repeated across the n columns reads, at
    (a, b), the vector at a (`column_apply`);
  * reducing over the column axis inserts the column coordinate at position 1 (`lift_row`), so the host's maximum
    and sum over that axis read, at row a, the fold of max (the sum) over the row's n entries
    (`hostRowMax_apply`, `hostRowSum_apply`), and so do the vector reductions (`vecRowMax_apply`, `vecRowSum_apply`);
  * `logSoftmaxRow y q = (y q - max y) - log (Σ_k exp (y k - max y))` is the logarithm of the softmax of one row, and
    the host's chain of operations for it reads, at (a, b), that function of row a (`hostLogSoftmax_apply`);
  * the host's sum of an array and a bias row, clamped below at zero, reads at (a, b) max (Z(a, b) + v(b), 0)
    (`hostBiasRelu_apply`).
  Nothing here depends on m: a block of rows and the whole array are read by the same lemma.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowWise

open Idealize.ShloMosaic Idealize.ShloMosaic.ValueIdx

variable {α : Type}

/-- A vector as a row repeated down the rows, the host way, read at an entry. -/
theorem biasRow_apply {m n : ℕ} (v : (⟨1, ![n]⟩ : Shape).Idx → α)
    (g1 : (⟨1, ![n]⟩ : Shape).BroadcastsInDim ⟨2, ![1, n]⟩ ![1])
    (g2 : (⟨2, ![1, n]⟩ : Shape).BroadcastsInDim ⟨2, ![m, n]⟩ ![0, 1]) (a : Fin m) (b : Fin n) :
    broadcastInDim ⟨2, ![m, n]⟩ ![0, 1] g2 (broadcastInDim ⟨2, ![1, n]⟩ ![1] g1 v) (ix2 a b) = v (ix1 b) := by
  have hb : b.val = if n = 1 then 0 else b.val := by
    split
    · have := b.isLt; omega
    · rfl
  have hk2 : ∀ ax : Fin 2, ((ix2 (0 : Fin 1) b : (⟨2, ![1, n]⟩ : Shape).Idx) ax).val
      = if (⟨2, ![1, n]⟩ : Shape).size ax = 1 then 0 else ((ix2 a b : (⟨2, ![m, n]⟩ : Shape).Idx) ((![0, 1] : Fin 2 → Fin 2) ax)).val := fun ax =>
    match ax with
    | ⟨0, _⟩ => rfl
    | ⟨1, _⟩ => hb
  have hk1 : ∀ ax : Fin 1, ((ix1 b : (⟨1, ![n]⟩ : Shape).Idx) ax).val
      = if (⟨1, ![n]⟩ : Shape).size ax = 1 then 0 else ((ix2 (0 : Fin 1) b : (⟨2, ![1, n]⟩ : Shape).Idx) ((![1] : Fin 1 → Fin 2) ax)).val := fun ax =>
    match ax with
    | ⟨0, _⟩ => hb
  rw [broadcastInDim_apply _ g2 _ (ix2 a b) (ix2 (0 : Fin 1) b) hk2, broadcastInDim_apply _ g1 v (ix2 (0 : Fin 1) b) (ix1 b) hk1]

/-- An [m, 1] column repeated across the n columns, the host way, reads at (a, b) the column at row a. -/
theorem colSpread_apply {m n : ℕ} (w : (⟨2, ![m, 1]⟩ : Shape).Idx → α)
    (g2 : (⟨2, ![m, 1]⟩ : Shape).BroadcastsInDim ⟨2, ![m, n]⟩ ![0, 1]) (a : Fin m) (b : Fin n) :
    broadcastInDim ⟨2, ![m, n]⟩ ![0, 1] g2 w (ix2 a b) = w (ix2 a (0 : Fin 1)) := by
  have ha : a.val = if m = 1 then 0 else a.val := by
    split
    · have := a.isLt; omega
    · rfl
  have hk2 : ∀ ax : Fin 2, ((ix2 a (0 : Fin 1) : (⟨2, ![m, 1]⟩ : Shape).Idx) ax).val
      = if (⟨2, ![m, 1]⟩ : Shape).size ax = 1 then 0 else ((ix2 a b : (⟨2, ![m, n]⟩ : Shape).Idx) ((![0, 1] : Fin 2 → Fin 2) ax)).val := fun ax =>
    match ax with
    | ⟨0, _⟩ => ha
    | ⟨1, _⟩ => rfl
  rw [broadcastInDim_apply _ g2 _ (ix2 a b) (ix2 a (0 : Fin 1)) hk2]

/-- A length-m vector laid out as an [m, 1] column, the host way, reads at (a, 0) the vector at a. -/
theorem colLift_apply {m : ℕ} (v : (⟨1, ![m]⟩ : Shape).Idx → α)
    (g1 : (⟨1, ![m]⟩ : Shape).BroadcastsInDim ⟨2, ![m, 1]⟩ ![0]) (a : Fin m) :
    broadcastInDim ⟨2, ![m, 1]⟩ ![0] g1 v (ix2 a (0 : Fin 1)) = v (ix1 a) := by
  have ha : a.val = if m = 1 then 0 else a.val := by
    split
    · have := a.isLt; omega
    · rfl
  have hk1 : ∀ ax : Fin 1, ((ix1 a : (⟨1, ![m]⟩ : Shape).Idx) ax).val
      = if (⟨1, ![m]⟩ : Shape).size ax = 1 then 0 else ((ix2 a (0 : Fin 1) : (⟨2, ![m, 1]⟩ : Shape).Idx) ((![0] : Fin 1 → Fin 2) ax)).val := fun ax =>
    match ax with
    | ⟨0, _⟩ => ha
  rw [broadcastInDim_apply _ g1 v (ix2 a (0 : Fin 1)) (ix1 a) hk1]

/-- A vector as a column repeated across the columns, the host way, read at an entry. -/
theorem column_apply {m n : ℕ} (v : (⟨1, ![m]⟩ : Shape).Idx → α)
    (g1 : (⟨1, ![m]⟩ : Shape).BroadcastsInDim ⟨2, ![m, 1]⟩ ![0])
    (g2 : (⟨2, ![m, 1]⟩ : Shape).BroadcastsInDim ⟨2, ![m, n]⟩ ![0, 1]) (a : Fin m) (b : Fin n) :
    broadcastInDim ⟨2, ![m, n]⟩ ![0, 1] g2 (broadcastInDim ⟨2, ![m, 1]⟩ ![0] g1 v) (ix2 a b) = v (ix1 a) := by
  rw [colSpread_apply, colLift_apply]

/-- Over row a, the index with column coordinate k inserted is (a, k). -/
theorem lift_row {m n : ℕ} (h : (⟨2, ![m, n]⟩ : Shape).Reduces [1] ⟨1, ![m]⟩) (a : Fin m)
    (k : Fin ((⟨2, ![m, n]⟩ : Shape).size 1)) :
    h.lift (ix1 a) k = ix2 a (k : Fin n) := by
  funext c
  apply Fin.ext
  rw [Shape.Reduces.lift_val]
  unfold Shape.Reduces.liftVal
  match c with
  | ⟨0, _⟩ => rfl
  | ⟨1, _⟩ => rfl

/-- The host's maximum over the column axis, at row a: the fold of max over the row's entries. -/
theorem hostRowMax_apply {m n : ℕ} (Z : FVec Ideal ⟨2, ![m, n]⟩ .f32) (init : BitVec 32)
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (a : Fin m) :
    Host.reduce FloatOps.maximumf Z (constant ⟨0, ![]⟩ .f32 init) h' hu (ix1 a)
      = (Finset.univ : Finset (Fin n)).fold max (Ideal.ofBits .f32 init) (fun k => Z (ix2 a k)) := by
  rw [Host.reduce_eq_fold_single FloatOps.maximumf Z _ h' h hu (ix1 a)]
  have e : (Z ∘ h.lift (ix1 a)) = fun k : Fin n => Z (ix2 a k) := funext fun k => congrArg Z (lift_row h a k)
  rw [e]
  rfl

/-- The host's sum over the column axis from zero, at row a: the sum of the row's entries. -/
theorem hostRowSum_apply {m n : ℕ} (Z : FVec Ideal ⟨2, ![m, n]⟩ .f32)
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (a : Fin m) :
    Host.reduceAdd Z (constant ⟨0, ![]⟩ .f32 0x00000000#32) h' hu (ix1 a) = ∑ k : Fin n, Z (ix2 a k) := by
  show Ideal.hostReduceAdd h' Z (Ideal.ofBits .f32 0x00000000#32) (ix1 a) = _
  rw [Ideal.hostReduceAdd_single h' h, Ideal.ofBits_zero_f32, zero_add]
  exact Finset.sum_congr rfl fun k _ => congrArg Z (lift_row h a k)

/-- A vector maximum over the column axis, at row a: the fold of max over the row's entries. -/
theorem vecRowMax_apply {m n : ℕ} (Z : FVec Ideal ⟨2, ![m, n]⟩ .f32) (acc : BitVec 32)
    (h : (⟨2, ![m, n]⟩ : Shape).Reduces [1] ⟨1, ![m]⟩) (hφ : FKind.Formats .f32)
    (hacc : acc = FKind.maximumf.neutral .f32 hφ) (a : Fin m) :
    multiReduction .maximumf [1] ⟨1, ![m]⟩ Z acc h hφ hacc (ix1 a)
      = (Finset.univ : Finset (Fin n)).fold max (Ideal.ofBits .f32 acc) (fun k => Z (ix2 a k)) := by
  rw [Ideal.multiReduction_maximumf_single]
  have e : (Z ∘ h.lift (ix1 a)) = fun k : Fin n => Z (ix2 a k) := funext fun k => congrArg Z (lift_row h a k)
  rw [e]
  rfl

/-- A vector sum over the column axis, at row a: the sum of the row's entries. -/
theorem vecRowSum_apply {m n : ℕ} (Z : FVec Ideal ⟨2, ![m, n]⟩ .f32) (acc : BitVec 32)
    (h : (⟨2, ![m, n]⟩ : Shape).Reduces [1] ⟨1, ![m]⟩) (hφ : FKind.Formats .f32)
    (hacc : acc = FKind.add.neutral .f32 hφ) (a : Fin m) :
    multiReduction .add [1] ⟨1, ![m]⟩ Z acc h hφ hacc (ix1 a) = ∑ k : Fin n, Z (ix2 a k) := by
  rw [Ideal.multiReduction_add_single]
  exact Finset.sum_congr rfl fun k _ => congrArg Z (lift_row h a k)

/-- The largest entry of a row (from -∞, kept as its f32 word). -/
def rowMax {n : ℕ} (y : Fin n → EReal) : EReal :=
  (Finset.univ : Finset (Fin n)).fold max (Ideal.ofBits .f32 0xFF800000#32) y

/-- The logarithm of the softmax of one row, at column q. -/
def logSoftmaxRow {n : ℕ} (y : Fin n → EReal) (q : Fin n) : EReal :=
  (y q - rowMax y) - Ideal.log (∑ k : Fin n, Ideal.exp (y k - rowMax y))

/-- The f32 word of -∞ is neutral for the maximum of extended reals. -/
theorem max_neg_inf (z : EReal) : max (Ideal.ofBits .f32 0xFF800000#32) z = z := by
  have hb : Ideal.ofBits .f32 0xFF800000#32 = (⊥ : EReal) := by simp [Ideal.ofBits, Ideal.ieee]
  rw [hb]; exact max_bot_left z

/-- The host's log-softmax over the column axis: the row maximum from -∞ (and once more against -∞), subtracted;
    the exponentials summed from zero; the logarithm of the sum subtracted. -/
def hostLogSoftmax {m n : ℕ} (gN : (⟨0, ![]⟩ : Shape).BroadcastsInDim ⟨1, ![m]⟩ ![])
    (g1 : (⟨1, ![m]⟩ : Shape).BroadcastsInDim ⟨2, ![m, 1]⟩ ![0])
    (g2 : (⟨2, ![m, 1]⟩ : Shape).BroadcastsInDim ⟨2, ![m, n]⟩ ![0, 1])
    (h' : (⟨2, ![m, n]⟩ : Shape).ReducesTo [1] ⟨1, ![m]⟩) (hu : 0 < (⟨0, ![]⟩ : Shape).numel)
    (Z : FVec Ideal ⟨2, ![m, n]⟩ .f32) : FVec Ideal ⟨2, ![m, n]⟩ .f32 :=
  subf
    (subf Z (broadcastInDim ⟨2, ![m, n]⟩ ![0, 1] g2 (broadcastInDim ⟨2, ![m, 1]⟩ ![0] g1
      (maximumf (broadcastInDim ⟨1, ![m]⟩ ![] gN (constant (F := Ideal) ⟨0, ![]⟩ .f32 0xFF800000#32))
        (Host.reduce FloatOps.maximumf Z (constant (F := Ideal) ⟨0, ![]⟩ .f32 0xFF800000#32) h' hu)))))
    (broadcastInDim ⟨2, ![m, n]⟩ ![0, 1] g2 (Host.log (broadcastInDim ⟨2, ![m, 1]⟩ ![0] g1
      (Host.reduceAdd
        (Host.exp (subf Z (broadcastInDim ⟨2, ![m, n]⟩ ![0, 1] g2 (broadcastInDim ⟨2, ![m, 1]⟩ ![0] g1
          (maximumf (broadcastInDim ⟨1, ![m]⟩ ![] gN (constant (F := Ideal) ⟨0, ![]⟩ .f32 0xFF800000#32))
            (Host.reduce FloatOps.maximumf Z (constant (F := Ideal) ⟨0, ![]⟩ .f32 0xFF800000#32) h' hu))))))
        (constant (F := Ideal) ⟨0, ![]⟩ .f32 0x00000000#32) h' hu))))

/-- The maximum the host subtracts, repeated across the columns, reads at (a, b) the largest entry of row a. -/
theorem hostShift_apply {m n : ℕ} (gN : (⟨0, ![]⟩ : Shape).BroadcastsInDim ⟨1, ![m]⟩ ![])
    (g1 : (⟨1, ![m]⟩ : Shape).BroadcastsInDim ⟨2, ![m, 1]⟩ ![0])
    (g2 : (⟨2, ![m, 1]⟩ : Shape).BroadcastsInDim ⟨2, ![m, n]⟩ ![0, 1])
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (Z : FVec Ideal ⟨2, ![m, n]⟩ .f32) (a : Fin m) (b : Fin n) :
    broadcastInDim ⟨2, ![m, n]⟩ ![0, 1] g2 (broadcastInDim ⟨2, ![m, 1]⟩ ![0] g1
      (maximumf (broadcastInDim ⟨1, ![m]⟩ ![] gN (constant (F := Ideal) ⟨0, ![]⟩ .f32 0xFF800000#32))
        (Host.reduce FloatOps.maximumf Z (constant (F := Ideal) ⟨0, ![]⟩ .f32 0xFF800000#32) h' hu))) (ix2 a b)
      = rowMax (fun k => Z (ix2 a k)) := by
  rw [column_apply]
  show max (Ideal.ofBits .f32 0xFF800000#32)
      (Host.reduce FloatOps.maximumf Z (constant (F := Ideal) ⟨0, ![]⟩ .f32 0xFF800000#32) h' hu (ix1 a)) = _
  rw [max_neg_inf, hostRowMax_apply Z _ h' h hu a]
  rfl

/-- The logarithm of a column vector, taken on the [m, 1] column and then repeated across the columns, reads at
    (a, b) the logarithm of the vector at a. -/
theorem logColumn_apply {m n : ℕ} (S : FVec Ideal ⟨1, ![m]⟩ .f32)
    (g1 : (⟨1, ![m]⟩ : Shape).BroadcastsInDim ⟨2, ![m, 1]⟩ ![0])
    (g2 : (⟨2, ![m, 1]⟩ : Shape).BroadcastsInDim ⟨2, ![m, n]⟩ ![0, 1]) (a : Fin m) (b : Fin n) :
    broadcastInDim ⟨2, ![m, n]⟩ ![0, 1] g2 (Host.log (broadcastInDim ⟨2, ![m, 1]⟩ ![0] g1 S)) (ix2 a b)
      = Ideal.log (S (ix1 a)) := by
  rw [colSpread_apply]
  show Ideal.log (broadcastInDim ⟨2, ![m, 1]⟩ ![0] g1 S (ix2 a (0 : Fin 1))) = _
  rw [colLift_apply]

/-- The host's log-softmax reads, at (a, b), the log-softmax of row a at column b. -/
theorem hostLogSoftmax_apply {m n : ℕ} (gN : (⟨0, ![]⟩ : Shape).BroadcastsInDim ⟨1, ![m]⟩ ![])
    (g1 : (⟨1, ![m]⟩ : Shape).BroadcastsInDim ⟨2, ![m, 1]⟩ ![0])
    (g2 : (⟨2, ![m, 1]⟩ : Shape).BroadcastsInDim ⟨2, ![m, n]⟩ ![0, 1])
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (Z : FVec Ideal ⟨2, ![m, n]⟩ .f32) (a : Fin m) (b : Fin n) :
    hostLogSoftmax gN g1 g2 h' hu Z (ix2 a b) = logSoftmaxRow (fun k => Z (ix2 a k)) b := by
  unfold hostLogSoftmax logSoftmaxRow
  show (Z (ix2 a b) - _) - _ = _
  rw [hostShift_apply gN g1 g2 h' h hu Z a b, logColumn_apply, hostRowSum_apply _ h' h hu a]
  refine congrArg (fun s => (Z (ix2 a b) - rowMax (fun k => Z (ix2 a k))) - Ideal.log s) ?_
  refine Finset.sum_congr rfl fun k _ => ?_
  show Ideal.exp (Z (ix2 a k) - _) = _
  rw [hostShift_apply gN g1 g2 h' h hu Z a k]

/-- The host's sum of an array and a bias row, clamped below at zero, at an entry. -/
theorem hostBiasRelu_apply {m n : ℕ} (Z : FVec Ideal ⟨2, ![m, n]⟩ .f32) (v : FVec Ideal ⟨1, ![n]⟩ .f32)
    (g1 : (⟨1, ![n]⟩ : Shape).BroadcastsInDim ⟨2, ![1, n]⟩ ![1])
    (g2 : (⟨2, ![1, n]⟩ : Shape).BroadcastsInDim ⟨2, ![m, n]⟩ ![0, 1])
    (g0 : (⟨0, ![]⟩ : Shape).BroadcastsInDim ⟨2, ![m, n]⟩ ![]) (a : Fin m) (b : Fin n) :
    maximumf (addf Z (broadcastInDim ⟨2, ![m, n]⟩ ![0, 1] g2 (broadcastInDim ⟨2, ![1, n]⟩ ![1] g1 v)))
        (broadcastInDim ⟨2, ![m, n]⟩ ![] g0 (constant (F := Ideal) ⟨0, ![]⟩ .f32 0x00000000#32)) (ix2 a b)
      = max (Z (ix2 a b) + v (ix1 b)) (Ideal.ofBits .f32 0x00000000#32) := by
  show max (Z (ix2 a b) + broadcastInDim ⟨2, ![m, n]⟩ ![0, 1] g2 (broadcastInDim ⟨2, ![1, n]⟩ ![1] g1 v) (ix2 a b)) _ = _
  rw [biasRow_apply]
  rfl

end Cert.RowWise

end
-- ==== Proof.RowNorm.lean ====
/-
  The row normalisation as a chain of vector operations on a block of rows, read at an entry.

  For a block Y of m rows and 128 columns the chain is: the row sums laid out as a column and divided by 128 (the
  row means); the deviations Y − mean; the row sums of their squares divided by 128 (the row variances); the
  deviations times the reciprocal square root of variance + ε; the leaky rectifier. Each step acts on every row by
  itself, so entry (p, q) of the result is `normK` of row p at column q — whatever the number of rows.
-/
import Idealize.ShloMosaic.PureOps.Ideal.Laws
import Idealize.ShloMosaic.Lib.ValueIdx
import Idealize.ShloMosaic.Lib.ValueLayout
import Idealize.ShloMosaic.Lib.Pipeline.Value
import proofs.«144229_g49108656063244_cont_8to1_c_419_7_alg».proof.Proof.Spec
import proofs.«144229_g49108656063244_cont_8to1_c_419_7_alg».proof.Proof.LibColumnCast
import proofs.«144229_g49108656063244_cont_8to1_c_419_7_alg».proof.Proof.LibColumnBroadcast
import proofs.«144229_g49108656063244_cont_8to1_c_419_7_alg».proof.Proof.LibRowWise

noncomputable section

open scoped BigOperators

namespace Cert.GraphConv

open Idealize.ShloMosaic Idealize.ShloMosaic.ValueIdx Cert.RowWise

section Chain

variable {m n : ℕ} (h : (⟨2, ![m, n]⟩ : Shape).Reduces [1] ⟨1, ![m]⟩) (hφ : FKind.Formats .f32)
  (hadd : (0x00000000#32 : BitVec 32) = FKind.add.neutral .f32 hφ)
  (hcol : (⟨1, ![m]⟩ : Shape).ShapeCasts ⟨2, ![m, 1]⟩) (hsp : (⟨2, ![m, 1]⟩ : Shape).Broadcasts ⟨2, ![m, n]⟩)

/-- The row means as a column: each row's sum, divided by the count word. -/
def vecMean (Y : FVec Ideal ⟨2, ![m, n]⟩ .f32) : FVec Ideal ⟨2, ![m, 1]⟩ .f32 :=
  divf (shapeCast ⟨2, ![m, 1]⟩ (multiReduction .add [1] ⟨1, ![m]⟩ Y 0x00000000#32 h hφ hadd) hcol)
    (broadcast ⟨2, ![m, 1]⟩ (Scalar.ofBits .f32 0x43000000#32 : Ideal .f32))

theorem vecMean_apply (Y : FVec Ideal ⟨2, ![m, n]⟩ .f32) (p : Fin m) :
    vecMean h hφ hadd hcol Y (ix2 p (0 : Fin 1)) = rowMean (fun k => Y (ix2 p k)) := by
  unfold vecMean rowMean
  show Ideal.div (shapeCast ⟨2, ![m, 1]⟩ (multiReduction .add [1] ⟨1, ![m]⟩ Y 0x00000000#32 h hφ hadd) hcol (ix2 p (0 : Fin 1))) _ = _
  rw [Cert.LibColumnCast.shapeCast_a_a1_apply, vecRowSum_apply]
  rfl

/-- The deviations of every entry from its row's mean. -/
def vecDev (Y : FVec Ideal ⟨2, ![m, n]⟩ .f32) : FVec Ideal ⟨2, ![m, n]⟩ .f32 :=
  subf Y (broadcastTo ⟨2, ![m, n]⟩ (vecMean h hφ hadd hcol Y) hsp)

theorem vecDev_apply (Y : FVec Ideal ⟨2, ![m, n]⟩ .f32) (p : Fin m) (q : Fin n) :
    vecDev h hφ hadd hcol hsp Y (ix2 p q) = Y (ix2 p q) - rowMean (fun k => Y (ix2 p k)) := by
  unfold vecDev
  show Y (ix2 p q) - broadcastTo ⟨2, ![m, n]⟩ (vecMean h hφ hadd hcol Y) hsp (ix2 p q) = _
  rw [Cert.LibColumnBroadcast.broadcastTo_a1_ab_apply, vecMean_apply]

/-- The row variances as a column: the mean of the squared deviations. -/
def vecVar (Y : FVec Ideal ⟨2, ![m, n]⟩ .f32) : FVec Ideal ⟨2, ![m, 1]⟩ .f32 :=
  vecMean h hφ hadd hcol (mulf (vecDev h hφ hadd hcol hsp Y) (vecDev h hφ hadd hcol hsp Y))

theorem vecVar_apply (Y : FVec Ideal ⟨2, ![m, n]⟩ .f32) (p : Fin m) :
    vecVar h hφ hadd hcol hsp Y (ix2 p (0 : Fin 1)) = rowVar (fun k => Y (ix2 p k)) := by
  unfold vecVar
  rw [vecMean_apply]
  unfold rowVar rowMean
  refine congrArg (fun s => Ideal.div s wCount) (Finset.sum_congr rfl fun k _ => ?_)
  show vecDev h hφ hadd hcol hsp Y (ix2 p k) * vecDev h hφ hadd hcol hsp Y (ix2 p k) = _
  rw [vecDev_apply]
  rfl

/-- The normalised and rectified block. -/
def vecNorm (Y : FVec Ideal ⟨2, ![m, n]⟩ .f32) : FVec Ideal ⟨2, ![m, n]⟩ .f32 :=
  select
    (cmpf .oge
      (mulf (vecDev h hφ hadd hcol hsp Y)
        (broadcastTo ⟨2, ![m, n]⟩ (rsqrt (addf (vecVar h hφ hadd hcol hsp Y)
          (broadcast ⟨2, ![m, 1]⟩ (Scalar.ofBits .f32 0x3727C5AC#32 : Ideal .f32)))) hsp))
      (broadcast ⟨2, ![m, n]⟩ (Scalar.ofBits .f32 0x00000000#32 : Ideal .f32)))
    (mulf (vecDev h hφ hadd hcol hsp Y)
      (broadcastTo ⟨2, ![m, n]⟩ (rsqrt (addf (vecVar h hφ hadd hcol hsp Y)
        (broadcast ⟨2, ![m, 1]⟩ (Scalar.ofBits .f32 0x3727C5AC#32 : Ideal .f32)))) hsp))
    (mulf (broadcast ⟨2, ![m, n]⟩ (Scalar.ofBits .f32 0x3C23D70A#32 : Ideal .f32))
      (mulf (vecDev h hφ hadd hcol hsp Y)
        (broadcastTo ⟨2, ![m, n]⟩ (rsqrt (addf (vecVar h hφ hadd hcol hsp Y)
          (broadcast ⟨2, ![m, 1]⟩ (Scalar.ofBits .f32 0x3727C5AC#32 : Ideal .f32)))) hsp)))

/-- The scaled deviation, before the rectifier, at an entry. -/
theorem scaled_apply (Y : FVec Ideal ⟨2, ![m, n]⟩ .f32) (p : Fin m) (q : Fin n) :
    mulf (vecDev h hφ hadd hcol hsp Y)
        (broadcastTo ⟨2, ![m, n]⟩ (rsqrt (addf (vecVar h hφ hadd hcol hsp Y)
          (broadcast ⟨2, ![m, 1]⟩ (Scalar.ofBits .f32 0x3727C5AC#32 : Ideal .f32)))) hsp) (ix2 p q)
      = (Y (ix2 p q) - rowMean (fun k => Y (ix2 p k))) * Ideal.rsqrt (rowVar (fun k => Y (ix2 p k)) + wEps) := by
  show vecDev h hφ hadd hcol hsp Y (ix2 p q)
      * broadcastTo ⟨2, ![m, n]⟩ (rsqrt (addf (vecVar h hφ hadd hcol hsp Y)
          (broadcast ⟨2, ![m, 1]⟩ (Scalar.ofBits .f32 0x3727C5AC#32 : Ideal .f32)))) hsp (ix2 p q) = _
  rw [vecDev_apply, Cert.LibColumnBroadcast.broadcastTo_a1_ab_apply]
  show _ * Ideal.rsqrt (vecVar h hφ hadd hcol hsp Y (ix2 p (0 : Fin 1)) + wEps) = _
  rw [vecVar_apply]

/-- Entry (p, q) of the normalised block is the kernel's row normalisation of row p at column q. -/
theorem vecNorm_apply (Y : FVec Ideal ⟨2, ![m, n]⟩ .f32) (p : Fin m) (q : Fin n) :
    vecNorm h hφ hadd hcol hsp Y (ix2 p q) = normK (fun k => Y (ix2 p k)) q := by
  unfold vecNorm normK leaky
  rw [← scaled_apply h hφ hadd hcol hsp Y p q]
  rfl

end Chain

end Cert.GraphConv

end
-- ==== Proof.LibPlainMatmul.lean ====
/-
  A plain matrix product into a zero accumulator, read at an entry, at the exact (extended-real) values.

  For an m×k matrix A and a k×n matrix B the product's (a, b) entry is the sum over the contracted coordinate c of
  A(a, c) · B(c, b): the contraction's index set has one axis, of extent k, and is re-indexed by its one coordinate.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the plain product of an m×k by a k×n matrix, accumulated into the zero matrix, is
    `∑ c, A (a, c) * B (c, b)` on the extended reals. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul (DotDims.plain m k n) prec A B (constant ⟨2, ![m, n]⟩ .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

end Idealize.ShloMosaic.ValueIdx

end
-- ==== Proof.LibTransposedMatmul.lean ====
/-
  A matrix product with the right operand transposed, into a zero accumulator, read at an entry, at the exact
  (extended-real) values.

  For an m×k matrix A and an n×k matrix B, contracting the last axis of both, the product's (a, b) entry is the sum
  over the contracted coordinate c of A(a, c) · B(b, c) — the (a, b) entry of A·Bᵀ: the contraction's index set has
  one axis, of extent k, and is re-indexed by its one coordinate.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the product of an m×k matrix with the transpose of an n×k matrix, accumulated into the zero
    matrix, is `∑ c, A (a, c) * B (b, c)` on the extended reals. -/
theorem matmul_transposedRhs_zero_apply {m k n : Nat} {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant ⟨2, ![m, n]⟩ .f32 0x00000000#32) (ix2 a b)
      = ∑ c : Fin k, A (ix2 a c) * B (ix2 b c) := by
  show FloatOps.matmul (DotDims.transposedRhs m k n) prec A B (constant ⟨2, ![m, n]⟩ .f32 0x00000000#32) (ix2 a b) = _
  rw [Ideal.matmul_constant_zero_apply, ← Equiv.sum_comp (contrEquiv1 (DotDims.transposedRhs m k n) k rfl rfl).symm]
  refine Finset.sum_congr rfl fun c _ => ?_
  have hc := contrEquiv1_symm_val (DotDims.transposedRhs m k n) k rfl rfl c
  have el : (DotDims.transposedRhs m k n).lhsIdx (ix2 a b) ((contrEquiv1 (DotDims.transposedRhs m k n) k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact hc
  have er : (DotDims.transposedRhs m k n).rhsIdx (ix2 a b) ((contrEquiv1 (DotDims.transposedRhs m k n) k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact hc
  rw [el, er]

end Idealize.ShloMosaic.ValueIdx

end
-- ==== Proof.KernelRows.lean ====
import proofs.«144229_g49108656063244_cont_8to1_c_419_7_alg».proof.Proof.IdealRun
import proofs.«144229_g49108656063244_cont_8to1_c_419_7_alg».proof.Proof.RowNorm
import proofs.«144229_g49108656063244_cont_8to1_c_419_7_alg».proof.Proof.LibPlainMatmul
import proofs.«144229_g49108656063244_cont_8to1_c_419_7_alg».proof.Proof.LibTransposedMatmul
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen Cert.GraphConv
open Idealize.ShloMosaic Idealize.ShloMosaic.TcCoe Idealize.ShloMosaic.ValueIdx
open Idealize.SL Idealize.SL.Sem
open Idealize.ShloMosaic.Pipeline (Dat Cfg Window cellOf)

/-! ## The body's two results as the row chain of a block's projection -/

/-- The two products of a block of 200 rows: (a·x)·wᵀ. -/
def blockProj (a : FVec Ideal S200x10000 .f32) (x : FVec Ideal S10000x128 .f32) (w : FVec Ideal S128x128 .f32) : FVec Ideal S200x128 .f32 :=
  matmul dot_S200x128_S128x128_S200x128_1_1_0_0_n_n none
    (matmul dot_S200x10000_S10000x128_S200x128_1_0_0_1_n_n none a x (constant S200x128 .f32 0x00000000#32)) w
    (constant S200x128 .f32 0x00000000#32)

/-- The row chain at the block's literal shapes. -/
abbrev blockNorm (Y : FVec Ideal S200x128 .f32) : FVec Ideal S200x128 .f32 :=
  vecNorm (m := 200) (n := 128) reduces_S200x128_S200 (.inl rfl) rfl shapeCasts_S200_S200x1 broadcasts_S200x1_S200x128 Y

set_option maxHeartbeats 1000000 in
/-- The upper half's payload is the row chain of the first row block's projection. -/
theorem payTop_eq (a : FVec Ideal S200x10000 .f32) (x : FVec Ideal S10000x128 .f32) (w : FVec Ideal S128x128 .f32) :
    k0_pay2 (F := Ideal) a x w = blockNorm (blockProj a x w) := rfl

set_option maxHeartbeats 1000000 in
/-- The lower half's payload is the row chain of the second row block's projection. -/
theorem payBot_eq (a : FVec Ideal S200x10000 .f32) (x : FVec Ideal S10000x128 .f32) (w : FVec Ideal S128x128 .f32) :
    k0_pay1 (F := Ideal) (k0_pay3 a x w) (k0_pay4 a x w) (Scalar.ofBits .f32 0x43000000#32) = blockNorm (blockProj a x w) := rfl

/-- Entry (p, j) of a block's projection: Σ_c (Σ_k a(p,k) · x(k,c)) · w(j,c). -/
theorem blockProj_apply (a : FVec Ideal S200x10000 .f32) (x : FVec Ideal S10000x128 .f32) (w : FVec Ideal S128x128 .f32)
    (p : Fin 200) (j : Fin 128) :
    blockProj a x w (ix2 p j) = ∑ c : Fin 128, (∑ k : Fin 10000, a (ix2 p k) * x (ix2 k c)) * w (ix2 j c) := by
  unfold blockProj
  refine (matmul_transposedRhs_zero_apply (m := 200) (k := 128) (n := 128) none _ w p j).trans ?_
  refine Finset.sum_congr rfl fun c _ => ?_
  exact congrArg (· * w (ix2 j c)) (matmul_plain_zero_apply (m := 200) (k := 10000) (n := 128) none a x p c)

/-- A block whose row p is row r of A, with the whole of X and W beside it, computes row r of the layer. -/
theorem row_of_block (A : FVec Ideal ⟨2, ![10000, 10000]⟩ .f32) (X : FVec Ideal ⟨2, ![10000, 128]⟩ .f32)
    (W : FVec Ideal ⟨2, ![128, 128]⟩ .f32) (a : FVec Ideal S200x10000 .f32) (x : FVec Ideal S10000x128 .f32)
    (w : FVec Ideal S128x128 .f32) (r : Fin 10000) (p : Fin 200) (ha : ∀ k : Fin 10000, a (ix2 p k) = A (ix2 r k))
    (hx : x = X) (hw : w = W) (q : Fin 128) :
    blockNorm (blockProj a x w) (ix2 p q) = outK A X W (ix2 r q) := by
  subst hx hw
  refine (vecNorm_apply _ _ _ _ _ (blockProj a x w) p q).trans ?_
  rw [outK_apply]
  refine congrArg (fun y => normK y q) (funext fun j => ?_)
  rw [blockProj_apply]
  unfold proj
  exact Finset.sum_congr rfl fun c _ => congrArg (· * w (ix2 j c)) (Finset.sum_congr rfl fun k _ => by rw [ha k])

end Cert.KernelIdeal.Hand

end
-- ==== Proof.KernelBlocks.lean ====
import proofs.«144229_g49108656063244_cont_8to1_c_419_7_alg».proof.Proof.KernelRows
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen Cert.GraphConv
open Idealize.ShloMosaic Idealize.ShloMosaic.TcCoe Idealize.ShloMosaic.ValueIdx
open Idealize.SL Idealize.SL.Sem
open Idealize.ShloMosaic.Pipeline (Dat Cfg Window cellOf)

variable (m : (ℓ : Loc nD τ sig) → Buf (Elt Ideal) ℓ)

/-! ## The index maps over the grid -/

/-- At grid point t the two adjacency windows sit at row blocks 2t and 2t + 1 (of 200 rows), the features and the
    weights at their one block, the result at row block t (of 400 rows). -/
theorem idx_facts : ∀ t : Fin cfg0.N, win0_0.index t (0 : Fin 2) = 2 * t.val ∧ win0_0.index t (1 : Fin 2) = 0
    ∧ win0_1.index t (0 : Fin 2) = 2 * t.val + 1 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem lt25 (t : Fin cfg0.N) : t.val < 25 := lt_of_lt_of_eq t.isLt N_0

theorem hz : (![0, 0] : Fin 2 → Nat) = fun _ => 0 := funext fun a => by fin_cases a <;> rfl

/-! ## The windows' blocks at coordinates -/

/-- Row p of the first adjacency window's block at point t is row 400·t + p of the adjacency matrix. -/
theorem iblk0_apply (c : Dev nD) (t : Fin cfg0.N) (p : Fin 200) (k : Fin 10000) (r : Fin 10000) (hr : r.val = 400 * t.val + p.val) :
    iblk m c 0 t (ix2 p k) = V m c main_arg0 (ix2 r k) := by
  obtain ⟨e0, e1, -⟩ := idx_facts t
  show V m c main_arg0 (((cfg0.win 0).blk t).view.emb (ix2 p k)) = _
  refine congrArg (V m c main_arg0) ?_
  funext a; apply Fin.ext
  match a with
  | ⟨0, _⟩ => show win0_0.index t (0 : Fin 2) * 200 + 1 * p.val = r.val; omega
  | ⟨1, _⟩ => show win0_0.index t (1 : Fin 2) * 10000 + 1 * k.val = k.val; omega

/-- Row p of the second adjacency window's block at point t is row 400·t + 200 + p of the adjacency matrix. -/
theorem iblk1_apply (c : Dev nD) (t : Fin cfg0.N) (p : Fin 200) (k : Fin 10000) (r : Fin 10000) (hr : r.val = 400 * t.val + 200 + p.val) :
    iblk m c 1 t (ix2 p k) = V m c main_arg0 (ix2 r k) := by
  obtain ⟨-, -, e0, e1, -⟩ := idx_facts t
  show V m c main_arg0 (((cfg0.win 1).blk t).view.emb (ix2 p k)) = _
  refine congrArg (V m c main_arg0) ?_
  funext a; apply Fin.ext
  match a with
  | ⟨0, _⟩ => show win0_1.index t (0 : Fin 2) * 200 + 1 * p.val = r.val; omega
  | ⟨1, _⟩ => show win0_1.index t (1 : Fin 2) * 10000 + 1 * k.val = k.val; omega

/-- The features' window holds the whole feature matrix at every point. -/
theorem iblk2_eq (c : Dev nD) (t : Fin cfg0.N) : iblk m c 2 t = V m c main_arg1 := by
  obtain ⟨-, -, -, -, e0, e1, -⟩ := idx_facts t
  funext j
  show V m c main_arg1 (((cfg0.win 2).blk t).view.emb j) = _
  refine congrArg (V m c main_arg1) ?_
  funext a; apply Fin.ext
  match a with
  | ⟨0, _⟩ => show win0_2.index t (0 : Fin 2) * 10000 + 1 * (j 0).val = (j 0).val; omega
  | ⟨1, _⟩ => show win0_2.index t (1 : Fin 2) * 128 + 1 * (j 1).val = (j 1).val; omega

/-- The weights' window holds the whole weight matrix at every point. -/
theorem iblk3_eq (c : Dev nD) (t : Fin cfg0.N) : iblk m c 3 t = V m c main_arg2 := by
  obtain ⟨-, -, -, -, -, -, e0, e1, -⟩ := idx_facts t
  funext j
  show V m c main_arg2 (((cfg0.win 3).blk t).view.emb j) = _
  refine congrArg (V m c main_arg2) ?_
  funext a; apply Fin.ext
  match a with
  | ⟨0, _⟩ => show win0_3.index t (0 : Fin 2) * 128 + 1 * (j 0).val = (j 0).val; omega
  | ⟨1, _⟩ => show win0_3.index t (1 : Fin 2) * 128 + 1 * (j 1).val = (j 1).val; omega

/-! ## What point t writes back -/

/-- The layer's output, read through the result window's block at point t. -/
def blockG (c : Dev nD) (t : Fin cfg0.N) : Vec Ideal S400x128 .f32 :=
  ((cfg0.win 4).blk t).view.read (Elt Ideal) (outK (V m c main_arg0) (V m c main_arg1) (V m c main_arg2))

/-- Entry (y, q) of the result window's block at point t is entry (400·t + y, q) of the array. -/
theorem blockG_apply (c : Dev nD) (t : Fin cfg0.N) (y : Fin 400) (q : Fin 128) (r : Fin 10000) (hr : r.val = 400 * t.val + y.val) :
    blockG m c t (ix2 y q) = outK (V m c main_arg0) (V m c main_arg1) (V m c main_arg2) (ix2 r q) := by
  obtain ⟨-, -, -, -, -, -, -, -, e0, e1⟩ := idx_facts t
  show outK (V m c main_arg0) (V m c main_arg1) (V m c main_arg2) (((cfg0.win 4).blk t).view.emb (ix2 y q)) = _
  refine congrArg (outK (V m c main_arg0) (V m c main_arg1) (V m c main_arg2)) ?_
  funext a; apply Fin.ext
  match a with
  | ⟨0, _⟩ => show win0_4.index t (0 : Fin 2) * 400 + 1 * y.val = r.val; omega
  | ⟨1, _⟩ => show win0_4.index t (1 : Fin 2) * 128 + 1 * q.val = q.val; omega

/-- The upper half of the block point t leaves: rows 400·t + p, from the first adjacency window. -/
theorem top_piece (c : Dev nD) (t : Fin cfg0.N) (x' : rTop.shape.Idx) :
    k0_pay2 (F := Ideal) (View.ld (iblk m c 0 t) rA) (View.ld (iblk m c 2 t) rX) (View.ld (iblk m c 3 t) rW) x'
      = blockG m c t (rTop.emb x') := by
  have ht := lt25 t
  obtain ⟨p, q, rfl⟩ : ∃ (p : Fin 200) (q : Fin 128), x' = ix2 p q := ⟨x' 0, x' 1, eq_ix2 x'⟩
  have hidx : rTop.emb (ix2 p q) = (ix2 (⟨p.val, by have := p.isLt; omega⟩ : Fin 400) q : S400x128.Idx) := by
    funext a; apply Fin.ext
    match a with
    | ⟨0, _⟩ => show 0 + 1 * p.val = p.val; omega
    | ⟨1, _⟩ => show 0 + 1 * q.val = q.val; omega
  simp only [View.ld_unit_zero (S := S200x10000) hz, View.ld_unit_zero (S := S10000x128) hz, View.ld_unit_zero (S := S128x128) hz]
  rw [hidx, payTop_eq]
  have hp := p.isLt
  refine (row_of_block (V m c main_arg0) (V m c main_arg1) (V m c main_arg2) _ _ _ (⟨400 * t.val + p.val, by omega⟩ : Fin 10000) p
    (fun k => iblk0_apply m c t p k _ rfl) (iblk2_eq m c t) (iblk3_eq m c t) q).trans ?_
  exact (blockG_apply m c t _ q _ rfl).symm

/-- The lower half of the block point t leaves: rows 400·t + 200 + p, from the second adjacency window. -/
theorem bot_piece (c : Dev nD) (t : Fin cfg0.N) (x' : rBot.shape.Idx) :
    k0_pay1 (F := Ideal) (k0_pay3 (View.ld (iblk m c 1 t) rA) (View.ld (iblk m c 2 t) rX) (View.ld (iblk m c 3 t) rW))
        (k0_pay4 (View.ld (iblk m c 1 t) rA) (View.ld (iblk m c 2 t) rX) (View.ld (iblk m c 3 t) rW)) (Scalar.ofBits .f32 0x43000000#32) x'
      = blockG m c t (rBot.emb x') := by
  have ht := lt25 t
  obtain ⟨p, q, rfl⟩ : ∃ (p : Fin 200) (q : Fin 128), x' = ix2 p q := ⟨x' 0, x' 1, eq_ix2 x'⟩
  have hidx : rBot.emb (ix2 p q) = (ix2 (⟨200 + p.val, by have := p.isLt; omega⟩ : Fin 400) q : S400x128.Idx) := by
    funext a; apply Fin.ext
    match a with
    | ⟨0, _⟩ => show 200 + 1 * p.val = 200 + p.val; omega
    | ⟨1, _⟩ => show 0 + 1 * q.val = q.val; omega
  simp only [View.ld_unit_zero (S := S200x10000) hz, View.ld_unit_zero (S := S10000x128) hz, View.ld_unit_zero (S := S128x128) hz]
  rw [hidx, payBot_eq]
  have hp := p.isLt
  refine (row_of_block (V m c main_arg0) (V m c main_arg1) (V m c main_arg2) _ _ _ (⟨400 * t.val + 200 + p.val, by omega⟩ : Fin 10000) p
    (fun k => iblk1_apply m c t p k _ rfl) (iblk2_eq m c t) (iblk3_eq m c t) q).trans ?_
  exact (blockG_apply m c t _ q _ (by show 400 * t.val + 200 + p.val = 400 * t.val + (200 + p.val); omega)).symm

/-- The block the body leaves at point t is the layer's output read through the result window's block there: each of
    its two halves is, and the halves cover the block. -/
theorem outBlock_eq (c : Dev nD) (t : Fin cfg0.N) :
    outBlock (iblk m c 0 t) (iblk m c 1 t) (iblk m c 2 t) (iblk m c 3 t) = blockG m c t := by
  funext y
  unfold outBlock
  refine View.canon_apply_of_pieces (blockG m c t) _ (fun pc hpc => ?_) y (cover_out _ _ y)
  rcases List.mem_cons.mp hpc with rfl | hpc
  · exact fun x' => bot_piece m c t x'
  · rcases List.mem_cons.mp hpc with rfl | hpc
    · exact fun x' => top_piece m c t x'
    · exact absurd hpc List.not_mem_nil

/-- What point t writes back is the layer's output read through the result window's block there. -/
theorem flushed_eq (c : Dev nD) (t : Fin cfg0.N) :
    (dats m 0 c).flushed 4 t = ((cfg0.win 4).blk t).view.read (Elt Ideal) (outK (V m c main_arg0) (V m c main_arg1) (V m c main_arg2)) := by
  show (cfg0.win 4).cut (grid0.coords t) ((dats m 0 c).after 4 t) = _
  rw [after_4, outBlock_eq]
  rfl

/-! ## The cover, and the array after the run -/

/-- An index of the result array is in point t's block iff each coordinate is in the block's range on its axis. -/
theorem mem_blk4 (t : Fin cfg0.N) (i : S10000x128.Idx) :
    i ∈ ((cfg0.win 4).blk t).view.set ↔ ∀ a : Fin 2, win0_4.index t a * S400x128.size a ≤ (i a).val ∧ (i a).val < win0_4.index t a * S400x128.size a + S400x128.size a := by
  show i ∈ ((View.whole main_v0).slice (win0_4.rect t)).set ↔ _
  rw [View.set_slice_whole, Rect.mem_set_unit]
  exact Iff.rfl

/-- Every row of the result lies in the block of the point ⌊row / 400⌋, which writes it back. -/
theorem covered (i : S10000x128.Idx) : ∃ t : Fin cfg0.N, (cfg0.win 4).flush t = true ∧ i ∈ ((cfg0.win 4).blk t).view.set := by
  have hi0 : (i 0).val < 10000 := (i 0).isLt
  have hi1 : (i 1).val < 128 := (i 1).isLt
  let t : Fin cfg0.N := ⟨(i 0).val / 400, by rw [show cfg0.N = 25 from N_0]; omega⟩
  obtain ⟨-, -, -, -, -, -, -, -, e0, e1⟩ := idx_facts t
  have e0' : win0_4.index t (0 : Fin 2) = (i 0).val / 400 := e0
  refine ⟨t, flush0_4 t, ?_⟩
  rw [mem_blk4]
  intro a
  match a with
  | ⟨0, _⟩ => show win0_4.index t (0 : Fin 2) * 400 ≤ (i 0).val ∧ (i 0).val < win0_4.index t (0 : Fin 2) * 400 + 400; omega
  | ⟨1, _⟩ => show win0_4.index t (1 : Fin 2) * 128 ≤ (i 1).val ∧ (i 1).val < win0_4.index t (1 : Fin 2) * 128 + 128; omega

/-- The result array after the run is the layer's output of the argument arrays. -/
theorem final (c : Dev nD) :
    (dats m 0 c).arrAt 4 cfg0.N = outK (V m c main_arg0) (V m c main_arg1) (V m c main_arg2) :=
  (dats m 0 c).arrAt_eq_of_cover 4 _ (fun t _ => flushed_eq m c t) covered

/-- Every weakly fair execution of the idealized kernel terminates with the result at the layer's output (in the
    kernel's form) of the arguments, and the arguments unchanged. -/
theorem run_value (ρ : Dev nD → PrngReg) :
    θ_run defs (onTc (τ := τ) (main (F := Ideal))) ⟨m, fun _ => 0, ρ⟩ (fun r => ∀ c : Dev nD,
      r.2.mem ((c.tc : Thread nD τ).loc main_v0)
        = outK (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (final m c), (h c).2⟩) (run_named m ρ)

end Cert.KernelIdeal.Hand

end
-- ==== Proof.LibERealFinite.lean ====
/-
  Two general facts about extended reals read as ideal float values.

  * `coe_sum`: the coercion of the reals into the extended reals commutes with finite sums, so an identity between sums
    and products of real-valued entries can be proved over the reals and carried back.
  * `real_of_abs_lt`: an extended real whose absolute value `max x (-x)` compares strictly below the f32 pattern of `+∞`
    (`0x7F800000`) is a real number — what a "every entry is finite" precondition gives, entry by entry (`inf_eq`: that
    pattern is `⊤`).
-/
import Idealize.ShloMosaic.PureOps.Ideal

noncomputable section

namespace Cert.LibERealFinite

open Idealize.ShloMosaic

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The f32 pattern `0x7F800000` is `+∞`. -/
theorem inf_eq : Ideal.ofBits .f32 0x7F800000#32 = (⊤ : EReal) := by
  simp [Ideal.ofBits, Ideal.ieee]

/-- An extended real whose absolute value compares strictly below `+∞` is a real number. -/
theorem real_of_abs_lt (x : EReal) (h : Ideal.cmp .olt (max x (-x)) (Ideal.ofBits .f32 0x7F800000#32) = 1#1) :
    ∃ v : ℝ, x = (v : EReal) := by
  rw [inf_eq] at h
  induction x using EReal.rec with
  | bot => simp [Ideal.cmp] at h
  | coe v => exact ⟨v, rfl⟩
  | top => simp [Ideal.cmp] at h

end Cert.LibERealFinite

end
-- ==== Proof.LibBatchNorm.lean ====
/-
  Batch normalisation of a column of real numbers, on the extended reals, in its two usual forms, and the proof that
  they are one function.

  A column `z : Fin n → EReal` of real entries has sum `S = ∑ z`, sum of squares `Q = ∑ z²`, mean `m = S / n`.

  * The ONE-PASS form computes the variance as `Q / n − m²` (the mean of the squares minus the square of the mean) and
    folds the normalisation into one affine map `z ↦ z · scale + shift` with `scale = γ · rsqrt(var + ε)` and
    `shift = β − m · scale`.
  * The TWO-PASS form computes the variance as the mean of the squared deviations `(∑ (z − m)²) / n` and normalises as
    `γ · (z − m) · rsqrt(var + ε) + β`.

  Over the reals the two variances are equal (expand the square; `∑ z = n · m`), both are non-negative (the second is a
  sum of squares), so with `ε > 0` the reciprocal square root is taken at a positive real and is a real; the rest is the
  distributive law, which the extended reals have at finite values only — hence the hypothesis that every entry is real.

  * `IsReal`: an extended real that is a real number, with its closure under the field operations, finite sums, `max`,
    and the ideal operations `div` (by a nonzero real), `rsqrt` (of a positive real), `exp`, `log1p` (of a real above −1).
  * `real_sum_sq_dev`, `real_variance`: the variance identity over the reals.
  * `fold_eq`, `fold_eq'`, `fold_real`, `var_add_eps_pos`: the two forms agree, their value is real, and `var + ε` is a
    positive real.
-/
import Idealize.ShloMosaic.PureOps.Ideal
import proofs.«144229_g49108656063244_cont_8to1_c_419_7_alg».proof.Proof.LibERealFinite

noncomputable section

open scoped BigOperators

namespace Cert.LibBatchNorm

open Idealize.ShloMosaic
open Cert.LibERealFinite

/-! ## Real extended reals -/

/-- An extended real that is a real number (neither infinity). -/
def IsReal (x : EReal) : Prop := ∃ r : ℝ, x = (r : EReal)

theorem isReal_coe (r : ℝ) : IsReal (r : EReal) := ⟨r, rfl⟩
theorem isReal_zero : IsReal 0 := ⟨0, EReal.coe_zero.symm⟩
theorem isReal_one : IsReal 1 := ⟨1, EReal.coe_one.symm⟩

theorem IsReal.ne_top {x : EReal} (h : IsReal x) : x ≠ ⊤ := by
  obtain ⟨a, rfl⟩ := h; exact EReal.coe_ne_top a
theorem IsReal.ne_bot {x : EReal} (h : IsReal x) : x ≠ ⊥ := by
  obtain ⟨a, rfl⟩ := h; exact EReal.coe_ne_bot a

/-- An extended real that is neither infinity is a real. -/
theorem isReal_of_ne {x : EReal} (ht : x ≠ ⊤) (hb : x ≠ ⊥) : IsReal x := by
  induction x using EReal.rec with
  | bot => exact absurd rfl hb
  | coe r => exact ⟨r, rfl⟩
  | top => exact absurd rfl ht

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.max {x y : EReal} (hx : IsReal x) (hy : IsReal y) : IsReal (max x y) := by
  rcases le_total x y with h | h
  · rw [max_eq_right h]; exact hy
  · rw [max_eq_left h]; exact hx
theorem IsReal.min {x y : EReal} (hx : IsReal x) (hy : IsReal y) : IsReal (min x y) := by
  rcases le_total x y with h | h
  · rw [min_eq_left h]; exact hx
  · rw [min_eq_right h]; exact hy

/-- A finite sum of reals is real. -/
theorem IsReal.sum {ι : Type*} (s : Finset ι) (f : ι → EReal) (h : ∀ i ∈ s, IsReal (f i)) : IsReal (∑ i ∈ s, f i) :=
  Finset.sum_induction f IsReal (fun _ _ => IsReal.add) isReal_zero h

/-- A sum over a finite type of reals is real. -/
theorem IsReal.sum_univ {ι : Type*} [Fintype ι] (f : ι → EReal) (h : ∀ i, IsReal (f i)) : IsReal (∑ i, f i) :=
  IsReal.sum _ f fun i _ => h i

/-- The ideal quotient of a real by a nonzero real is the real quotient. -/
theorem div_coe_coe (a : ℝ) {b : ℝ} (hb : b ≠ 0) : Ideal.div (a : EReal) (b : EReal) = ((a * (1 / b) : ℝ) : EReal) := by
  rw [Ideal.div_coe hb, ← EReal.coe_mul]

theorem IsReal.div {x c : EReal} (hx : IsReal x) (hc : IsReal c) (h0 : c ≠ 0) : IsReal (Ideal.div x c) := by
  obtain ⟨a, rfl⟩ := hx; obtain ⟨b, rfl⟩ := hc
  exact ⟨_, div_coe_coe a (EReal.coe_ne_zero.mp h0)⟩

/-- The ideal reciprocal square root of a positive real is the real one. -/
theorem rsqrt_coe_pos {a : ℝ} (h : 0 < a) : Ideal.rsqrt (a : EReal) = (((Real.sqrt a)⁻¹ : ℝ) : EReal) := by
  rw [Ideal.rsqrt_coe, if_neg (not_lt.mpr h.le), if_neg h.ne']

theorem IsReal.rsqrt {x : EReal} (hx : IsReal x) (h0 : 0 < x) : IsReal (Ideal.rsqrt x) := by
  obtain ⟨a, rfl⟩ := hx
  exact ⟨_, rsqrt_coe_pos (EReal.coe_pos.mp h0)⟩

/-- The reciprocal square root of a positive real is positive. -/
theorem rsqrt_pos {x : EReal} (hx : IsReal x) (h0 : 0 < x) : 0 < Ideal.rsqrt x := by
  obtain ⟨a, rfl⟩ := hx
  have ha : 0 < a := EReal.coe_pos.mp h0
  rw [rsqrt_coe_pos ha]
  exact EReal.coe_pos.mpr (inv_pos.mpr (Real.sqrt_pos.mpr ha))

theorem IsReal.exp {x : EReal} (hx : IsReal x) : IsReal (Ideal.exp x) := by
  obtain ⟨a, rfl⟩ := hx; exact ⟨Real.exp a, Ideal.exp_coe a⟩

/-- The exponential of a real is positive. -/
theorem exp_pos {x : EReal} (hx : IsReal x) : 0 < Ideal.exp x := by
  obtain ⟨a, rfl⟩ := hx
  rw [Ideal.exp_coe]; exact EReal.coe_pos.mpr (Real.exp_pos a)

/-- `log (1 + x)` at a real `x > −1` is the real logarithm. -/
theorem log1p_coe_of_lt {a : ℝ} (h : -1 < a) : Ideal.log1p (a : EReal) = ((Real.log (1 + a) : ℝ) : EReal) := by
  rw [Ideal.log1p, ← EReal.coe_one, ← EReal.coe_add, Ideal.log_coe, if_neg (by linarith)]

theorem IsReal.log1p {x : EReal} (hx : IsReal x) (h : -1 < x) : IsReal (Ideal.log1p x) := by
  obtain ⟨a, rfl⟩ := hx
  have ha : -1 < a := by
    have : ((-1 : ℝ) : EReal) < (a : EReal) := by simpa using h
    exact EReal.coe_lt_coe_iff.mp this
  exact ⟨_, log1p_coe_of_lt ha⟩

/-! ## The variance identity over the reals -/

/-- The sum of the squared deviations from any number `m`: expand the square. -/
theorem real_sum_sq_dev {n : ℕ} (z : Fin n → ℝ) (m : ℝ) :
    ∑ r, (z r - m) * (z r - m) = (∑ r, z r * z r) - 2 * m * (∑ r, z r) + n * (m * m) := by
  have h : ∀ r, (z r - m) * (z r - m) = z r * z r - 2 * m * z r + m * m := fun r => by ring
  simp only [h]
  rw [Finset.sum_add_distrib, Finset.sum_sub_distrib, ← Finset.mul_sum, Finset.sum_const, Finset.card_univ,
    Fintype.card_fin, nsmul_eq_mul]

/-- The mean of the squared deviations from the mean is the mean of the squares minus the square of the mean. -/
theorem real_variance {n : ℕ} (hn : n ≠ 0) (z : Fin n → ℝ) :
    (∑ r, (z r - (∑ s, z s) * (1 / (n : ℝ))) * (z r - (∑ s, z s) * (1 / (n : ℝ)))) * (1 / (n : ℝ))
      = (∑ r, z r * z r) * (1 / (n : ℝ)) - ((∑ s, z s) * (1 / (n : ℝ))) * ((∑ s, z s) * (1 / (n : ℝ))) := by
  have hn' : (n : ℝ) ≠ 0 := Nat.cast_ne_zero.mpr hn
  rw [real_sum_sq_dev]
  field_simp
  ring

/-- The mean of the squared deviations is non-negative. -/
theorem real_variance_nonneg {n : ℕ} (z : Fin n → ℝ) (m : ℝ) :
    0 ≤ (∑ r, (z r - m) * (z r - m)) * (1 / (n : ℝ)) :=
  mul_nonneg (Finset.sum_nonneg fun r _ => mul_self_nonneg _) (by positivity)

/-! ## The folded and the two-pass normalisation agree -/

section Fold

variable {n : ℕ}

/-- With real entries, count `n ≠ 0` and `ε > 0`: the one-pass variance plus `ε` is a positive real. -/
theorem var_add_eps_pos (hn : n ≠ 0) (c : EReal) (hc : c = ((n : ℝ) : EReal)) (e : ℝ) (he : 0 < e) (eps : EReal)
    (heps : eps = (e : EReal)) (z : Fin n → EReal) (hz : ∀ r, IsReal (z r)) :
    IsReal ((Ideal.div (∑ r, z r * z r) c - Ideal.div (∑ r, z r) c * Ideal.div (∑ r, z r) c) + eps)
      ∧ 0 < (Ideal.div (∑ r, z r * z r) c - Ideal.div (∑ r, z r) c * Ideal.div (∑ r, z r) c) + eps := by
  subst hc heps
  choose z' hz' using hz
  obtain rfl : z = fun r => (z' r : EReal) := funext hz'
  have hn' : (n : ℝ) ≠ 0 := Nat.cast_ne_zero.mpr hn
  have hpos : 0 < (∑ r, z' r * z' r) * (1 / (n : ℝ)) - ((∑ s, z' s) * (1 / (n : ℝ))) * ((∑ s, z' s) * (1 / (n : ℝ))) + e := by
    rw [← real_variance hn z']
    have := real_variance_nonneg z' ((∑ s, z' s) * (1 / (n : ℝ)))
    linarith
  simp only [← EReal.coe_mul, ← coe_sum, div_coe_coe _ hn', ← EReal.coe_sub, ← EReal.coe_add]
  exact ⟨isReal_coe _, EReal.coe_pos.mpr hpos⟩

/-- **The folded batch normalisation is the two-pass one.** For a column `z` of `n ≠ 0` real entries, real `γ`, `β`
    and `ε > 0`: the affine map `z i · scale + shift` built from the sum `S` and the sum of squares `Q`
    (`mean = S / n`, `var = Q / n − mean²`, `scale = γ · rsqrt (var + ε)`, `shift = β − mean · scale`) equals
    `γ · (z i − mean) · rsqrt ((∑ (z − mean)²) / n + ε) + β`. -/
theorem fold_eq (hn : n ≠ 0) (c : EReal) (hc : c = ((n : ℝ) : EReal)) (e : ℝ) (he : 0 < e) (eps : EReal)
    (heps : eps = (e : EReal)) (z : Fin n → EReal) (hz : ∀ r, IsReal (z r)) (g β : EReal) (hg : IsReal g)
    (hβ : IsReal β) (i : Fin n) :
    z i * (g * Ideal.rsqrt ((Ideal.div (∑ r, z r * z r) c - Ideal.div (∑ r, z r) c * Ideal.div (∑ r, z r) c) + eps))
        + (β - Ideal.div (∑ r, z r) c
            * (g * Ideal.rsqrt ((Ideal.div (∑ r, z r * z r) c - Ideal.div (∑ r, z r) c * Ideal.div (∑ r, z r) c) + eps)))
      = ((g * (z i - Ideal.div (∑ r, z r) c))
          * Ideal.rsqrt (Ideal.div (∑ r, (z r - Ideal.div (∑ s, z s) c) * (z r - Ideal.div (∑ s, z s) c)) c + eps)) + β := by
  subst hc heps
  choose z' hz' using hz
  obtain rfl : z = fun r => (z' r : EReal) := funext hz'
  obtain ⟨g', rfl⟩ := hg
  obtain ⟨β', rfl⟩ := hβ
  have hn' : (n : ℝ) ≠ 0 := Nat.cast_ne_zero.mpr hn
  have hvar := real_variance hn z'
  have hpos : 0 < (∑ r, z' r * z' r) * (1 / (n : ℝ)) - ((∑ s, z' s) * (1 / (n : ℝ))) * ((∑ s, z' s) * (1 / (n : ℝ))) + e := by
    rw [← hvar]
    have := real_variance_nonneg z' ((∑ s, z' s) * (1 / (n : ℝ)))
    linarith
  simp only [← EReal.coe_mul, ← coe_sum, div_coe_coe _ hn', ← EReal.coe_sub, ← EReal.coe_add]
  rw [hvar, rsqrt_coe_pos hpos]
  simp only [← EReal.coe_mul, ← EReal.coe_sub, ← EReal.coe_add]
  exact congrArg _ (by ring)

/-- The mean of a real column over a nonzero count is real. -/
theorem mean_real (hn : n ≠ 0) (c : EReal) (hc : c = ((n : ℝ) : EReal)) (z : Fin n → EReal) (hz : ∀ r, IsReal (z r)) :
    IsReal (Ideal.div (∑ r, z r) c) := by
  have hc0 : c ≠ 0 := by rw [hc]; exact EReal.coe_ne_zero.mpr (Nat.cast_ne_zero.mpr hn)
  exact IsReal.div (IsReal.sum_univ _ hz) (hc ▸ isReal_coe _) hc0

/-- The folded scale `γ · rsqrt (var + ε)` is real. -/
theorem scale_real (hn : n ≠ 0) (c : EReal) (hc : c = ((n : ℝ) : EReal)) (e : ℝ) (he : 0 < e) (eps : EReal)
    (heps : eps = (e : EReal)) (z : Fin n → EReal) (hz : ∀ r, IsReal (z r)) (g : EReal) (hg : IsReal g) :
    IsReal (g * Ideal.rsqrt ((Ideal.div (∑ r, z r * z r) c - Ideal.div (∑ r, z r) c * Ideal.div (∑ r, z r) c) + eps)) := by
  obtain ⟨hV, hVpos⟩ := var_add_eps_pos hn c hc e he eps heps z hz
  exact hg.mul (IsReal.rsqrt hV hVpos)

/-- The folded shift `β − mean · scale` is real. -/
theorem shift_real (hn : n ≠ 0) (c : EReal) (hc : c = ((n : ℝ) : EReal)) (e : ℝ) (he : 0 < e) (eps : EReal)
    (heps : eps = (e : EReal)) (z : Fin n → EReal) (hz : ∀ r, IsReal (z r)) (g β : EReal) (hg : IsReal g)
    (hβ : IsReal β) :
    IsReal (β - Ideal.div (∑ r, z r) c
      * (g * Ideal.rsqrt ((Ideal.div (∑ r, z r * z r) c - Ideal.div (∑ r, z r) c * Ideal.div (∑ r, z r) c) + eps))) :=
  hβ.sub ((mean_real hn c hc z hz).mul (scale_real hn c hc e he eps heps z hz g hg))

/-- The normalised entry (in its folded form, hence in both) is real. -/
theorem fold_real (hn : n ≠ 0) (c : EReal) (hc : c = ((n : ℝ) : EReal)) (e : ℝ) (he : 0 < e) (eps : EReal)
    (heps : eps = (e : EReal)) (z : Fin n → EReal) (hz : ∀ r, IsReal (z r)) (g β : EReal) (hg : IsReal g)
    (hβ : IsReal β) (i : Fin n) :
    IsReal (z i * (g * Ideal.rsqrt ((Ideal.div (∑ r, z r * z r) c - Ideal.div (∑ r, z r) c * Ideal.div (∑ r, z r) c) + eps))
        + (β - Ideal.div (∑ r, z r) c
            * (g * Ideal.rsqrt ((Ideal.div (∑ r, z r * z r) c - Ideal.div (∑ r, z r) c * Ideal.div (∑ r, z r) c) + eps)))) :=
  ((hz i).mul (scale_real hn c hc e he eps heps z hz g hg)).add (shift_real hn c hc e he eps heps z hz g β hg hβ)

/-- The same identity with the two-pass side's mean `m` and variance `v` given by name. -/
theorem fold_eq' (hn : n ≠ 0) (c : EReal) (hc : c = ((n : ℝ) : EReal)) (e : ℝ) (he : 0 < e) (eps : EReal)
    (heps : eps = (e : EReal)) (z : Fin n → EReal) (hz : ∀ r, IsReal (z r)) (g β : EReal) (hg : IsReal g)
    (hβ : IsReal β) (i : Fin n) (m v : EReal) (hm : m = Ideal.div (∑ r, z r) c)
    (hv : v = Ideal.div (∑ r, (z r - m) * (z r - m)) c) :
    z i * (g * Ideal.rsqrt ((Ideal.div (∑ r, z r * z r) c - Ideal.div (∑ r, z r) c * Ideal.div (∑ r, z r) c) + eps))
        + (β - Ideal.div (∑ r, z r) c
            * (g * Ideal.rsqrt ((Ideal.div (∑ r, z r * z r) c - Ideal.div (∑ r, z r) c * Ideal.div (∑ r, z r) c) + eps)))
      = ((g * (z i - m)) * Ideal.rsqrt (v + eps)) + β := by
  subst hv; subst hm
  exact fold_eq hn c hc e he eps heps z hz g β hg hβ i

end Fold

end Cert.LibBatchNorm

end
-- ==== Proof.NormAgree.lean ====
/-
  The kernel's and the reference's row normalisations are one function on rows of real numbers.

  For a row y of real numbers: the mean μ is real (the row sum divided by the nonzero real 128), the deviations are
  real, the variance v is a real ≥ 0 (a sum of squares divided by 128), and ε is a positive real, so v + ε is a
  positive real. At a positive real t the reciprocal square root is the real (√t)⁻¹ and the square root is the nonzero
  real √t, and dividing a real by a nonzero real is multiplying by its inverse: (y_j − μ) · rsqrt t = (y_j − μ) / sqrt t.
  The rectifier is then applied to equal numbers. At an infinite entry the two forms need not agree (∞ · 0 against ∞ / ∞):
  this is where the finiteness of the inputs is used.
-/
import Idealize.ShloMosaic.PureOps.Ideal
import proofs.«144229_g49108656063244_cont_8to1_c_419_7_alg».proof.Proof.Spec
import proofs.«144229_g49108656063244_cont_8to1_c_419_7_alg».proof.Proof.LibBatchNorm

noncomputable section

open scoped BigOperators

namespace Cert.GraphConv

open Idealize.ShloMosaic Cert.LibBatchNorm

/-- The count word denotes the real 128. -/
theorem wCount_eq : wCount = ((128 : ℝ) : EReal) := by
  simp [wCount, Ideal.ofBits, Ideal.ieee, -EReal.coe_mul]; norm_num

/-- The offset word ε denotes a positive real. -/
theorem wEps_pos : ∃ e : ℝ, 0 < e ∧ wEps = (e : EReal) := by
  refine ⟨_, ?_, by simp [wEps, Ideal.ofBits, Ideal.ieee, -EReal.coe_mul]; rfl⟩
  positivity

/-- The mean of a real row is real. -/
theorem rowMean_real {n : ℕ} (y : Fin n → EReal) (hy : ∀ k, IsReal (y k)) : IsReal (rowMean y) := by
  unfold rowMean
  rw [wCount_eq]
  exact IsReal.div (IsReal.sum_univ _ hy) (isReal_coe _) (EReal.coe_ne_zero.mpr (by norm_num))

/-- The variance of a real row is a real, and it is not negative. -/
theorem rowVar_real {n : ℕ} (y : Fin n → EReal) (hy : ∀ k, IsReal (y k)) : ∃ v : ℝ, 0 ≤ v ∧ rowVar y = (v : EReal) := by
  obtain ⟨μ, hμ⟩ := rowMean_real y hy
  choose y' hy' using hy
  unfold rowVar
  rw [hμ, wCount_eq]
  simp only [hy', ← EReal.coe_sub, ← EReal.coe_mul, ← Cert.LibERealFinite.coe_sum]
  rw [div_coe_coe _ (by norm_num : (128 : ℝ) ≠ 0)]
  exact ⟨_, mul_nonneg (Finset.sum_nonneg fun k _ => mul_self_nonneg _) (by norm_num), rfl⟩

/-- On a row of real numbers the deviation times the reciprocal square root is the deviation divided by the square
    root, so the two normalisations agree. -/
theorem normK_eq_normR {n : ℕ} (y : Fin n → EReal) (hy : ∀ k, IsReal (y k)) (j : Fin n) : normK y j = normR y j := by
  obtain ⟨μ, hμ⟩ := rowMean_real y hy
  obtain ⟨v, hv0, hv⟩ := rowVar_real y hy
  obtain ⟨e, he, hE⟩ := wEps_pos
  obtain ⟨yj, hyj⟩ := hy j
  have ht : 0 < v + e := by linarith
  have hs : Real.sqrt (v + e) ≠ 0 := (Real.sqrt_pos.mpr ht).ne'
  unfold normK normR
  refine congrArg leaky ?_
  rw [hv, hE, hμ, hyj, ← EReal.coe_add, ← EReal.coe_sub, rsqrt_coe_pos ht, Ideal.sqrt_coe, if_neg (not_lt.mpr ht.le),
    Ideal.div_coe hs, one_div]

end Cert.GraphConv

end
-- ==== Proof.Bridge.lean ====
/-
  Under real arguments the kernel's and the reference's forms of the layer are one array.

  Every entry of the projected row (A·X)·Wᵀ is a finite sum of products of entries of A, X and W, hence real when they
  are; on real rows the two normalisations agree.
-/
import proofs.«144229_g49108656063244_cont_8to1_c_419_7_alg».proof.Proof.Spec
import proofs.«144229_g49108656063244_cont_8to1_c_419_7_alg».proof.Proof.NormAgree
import proofs.«144229_g49108656063244_cont_8to1_c_419_7_alg».proof.Proof.LibBatchNorm

noncomputable section

open scoped BigOperators

namespace Cert.GraphConv

open Idealize.ShloMosaic Idealize.ShloMosaic.ValueIdx Cert.LibBatchNorm

/-- The projected rows of real matrices are real. -/
theorem proj_real (A : FVec Ideal ⟨2, ![10000, 10000]⟩ .f32) (X : FVec Ideal ⟨2, ![10000, 128]⟩ .f32)
    (W : FVec Ideal ⟨2, ![128, 128]⟩ .f32) (hA : ∀ i, IsReal (A i)) (hX : ∀ i, IsReal (X i)) (hW : ∀ i, IsReal (W i))
    (r : Fin 10000) (j : Fin 128) : IsReal (proj A X W r j) :=
  IsReal.sum_univ _ fun c => (IsReal.sum_univ _ fun k => (hA _).mul (hX _)).mul (hW _)

/-- On real arguments the kernel's form of the layer is the reference's. -/
theorem outK_eq_outR (A : FVec Ideal ⟨2, ![10000, 10000]⟩ .f32) (X : FVec Ideal ⟨2, ![10000, 128]⟩ .f32)
    (W : FVec Ideal ⟨2, ![128, 128]⟩ .f32) (hA : ∀ i, IsReal (A i)) (hX : ∀ i, IsReal (X i)) (hW : ∀ i, IsReal (W i)) :
    outK A X W = outR A X W := by
  funext i
  unfold outK outR
  exact normK_eq_normR _ (fun k => proj_real A X W hA hX hW _ k) _

end Cert.GraphConv

end
-- ==== Proof.Finite.lean ====
/-
  What the precondition says, entry by entry: every entry of the three arguments is a real number.

  The predicate is the conjunction of three tests "every |entry| < +∞", each a reduction by AND over a whole array.
  A conjunction is 1 iff both sides are; a reduction by AND into one cell is 1 only if every element is; and an
  extended real whose absolute value is strictly below +∞ is a real number.
-/
import proofs.«144229_g49108656063244_cont_8to1_c_419_7_alg».proof.Pre_finite_inputs
import proofs.«144229_g49108656063244_cont_8to1_c_419_7_alg».proof.Proof.Gen.Pre_finite_inputs
import Idealize.ShloMosaic.PureOps.Ideal
import Idealize.ShloMosaic.Lib.ReduceAll
import Idealize.ShloMosaic.Lib.Affine
import Idealize.ShloMosaic.Lib.ValueIdx
import proofs.«144229_g49108656063244_cont_8to1_c_419_7_alg».proof.Proof.LibERealFinite
import proofs.«144229_g49108656063244_cont_8to1_c_419_7_alg».proof.Proof.LibBatchNorm

noncomputable section

namespace Cert.Pre_finite_inputs.Hand

open Idealize.ShloMosaic Cert.Pre_finite_inputs Cert.Pre_finite_inputs.Gen Cert.LibBatchNorm

/-- A rank-zero array has one index. -/
instance : Subsingleton S_.Idx := ⟨fun a b => funext fun d => d.elim0⟩

/-- Under the precondition every entry of the adjacency matrix, the features and the weights is a real number. -/
theorem real_of_pre (A : FVec Ideal S10000x10000 .f32) (X : FVec Ideal S10000x128 .f32) (W : FVec Ideal S128x128 .f32)
    (h : Cert.Pre_finite_inputs.fn (F := Ideal) A X W = fun _ => 1#1) :
    (∀ i, IsReal (A i)) ∧ (∀ i, IsReal (X i)) ∧ (∀ i, IsReal (W i)) := by
  have h0 := congrFun h ValueIdx.ix0
  dsimp only [fn] at h0
  obtain ⟨h01, hW⟩ := IntOp.andi_eq_one.mp h0
  obtain ⟨hA, hX⟩ := IntOp.andi_eq_one.mp h01
  refine ⟨fun i => ?_, fun i => ?_, fun i => ?_⟩
  · exact Cert.LibERealFinite.real_of_abs_lt (A i) (Host.reduce_andi_all _ _ _ _ _ hA i)
  · exact Cert.LibERealFinite.real_of_abs_lt (X i) (Host.reduce_andi_all _ _ _ _ _ hX i)
  · exact Cert.LibERealFinite.real_of_abs_lt (W i) (Host.reduce_andi_all _ _ _ _ _ hW i)

end Cert.Pre_finite_inputs.Hand

end
-- ==== Proof.LibTypedRefCasts.lean ====
/-
  A tensor value stored into a buffer and read back is the value.

  A typed reference names a buffer together with the equation "the buffer's type is the value's type". Storing a value
  transports it along that equation and reading transports back, so reading what was stored is the identity — for any
  buffer, any type and any element interpretation, by taking the equation to be reflexivity. Rewriting with this
  removes the transports from the composed result of a line of operations on typed references before anything is
  compared definitionally.
-/
import Idealize.ShloMosaic.Lib.StableHlo

namespace Cert.LibTypedRefCasts

open Idealize.ShloMosaic Idealize.ShloMosaic.StableHlo

variable {sig : RefSig} {Val : EltTy → Type} {T : BufTy}

/-- Reading a value back through the buffer type it was stored at gives the value. -/
theorem ofBuf_toBuf (x : TRef sig T) (v : T.Contents Val) : x.ofBuf (x.toBuf v) = v := by
  obtain ⟨r, h1, h2, h3⟩ := x
  subst h1
  rfl

/-- Storing what was read through the buffer type gives it back. -/
theorem toBuf_ofBuf (x : TRef sig T) (w : x.ref.ty.Contents Val) : x.toBuf (x.ofBuf w) = w := by
  obtain ⟨r, h1, h2, h3⟩ := x
  subst h1
  rfl

end Cert.LibTypedRefCasts
-- ==== Proof.RefRun.lean ====
/-
  The reference program's run, read back as a straight line.

  The reference computes, for an adjacency matrix A, features X and weights W, the matrix P = (A·X)·Wᵀ, then for
  each row the mean and the variance of its 128 entries, the row normalised by the square root of the variance plus a
  small offset, and the leaky rectifier of the result. Its text is a main function that calls three helper
  functions (the variance, with a guarded division inside it, and two selections); substituting each helper's body
  at its call gives one line of forty-eight array operations, each writing a buffer of its own. This module lists
  that line, shows that the program is the line, and reads the final contents of the result buffer off it as one
  composed term of the three arguments' initial contents.
-/
import proofs.«144229_g49108656063244_cont_8to1_c_419_7_alg».proof.Proof.Gen.ReferenceIdeal
import proofs.«144229_g49108656063244_cont_8to1_c_419_7_alg».proof.Proof.LibTypedRefCasts
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The forty-eight operations in order: ten of the main function (the two matrix products around the transpose of
    the weights, the row sums of P, the mean as an [N, 1] column, the integer zero passed to the variance); twenty
    of the variance function (the mean again, the squared deviations, the divisor 128 − 0 as a scalar, the row sums
    of the squares, their quotient by the divisor, the comparison "divisor > 0", the not-a-number word); three of
    the guarded selection (the word converted to its own type, spread down the column, the selection between the
    quotient and it); fourteen of the main function (the deviation from the mean, the offset added to the variance,
    the square root, the quotient, the comparison with zero, the product with the slope); and the final
    selection. -/
abbrev ops : List (HloOp τ sig (Elt F)) :=
  [ StableHlo.binary main_arg0 main_arg1 main_v0 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    StableHlo.unary main_arg2 main_v1 ((transpose S128x128 [1, 0] · transposes_S128x128_S128x128_1_0) : (⟨S128x128, .f32⟩ : BufTy).Contents (Elt F) → (⟨S128x128, .f32⟩ : BufTy).Contents (Elt F)),
    StableHlo.binary main_v0 main_v1 main_v2 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.nullary main_cst (constant S_ .f32 0x00000000#32),
    StableHlo.binary main_v2 main_cst main_v3 ((fun x v => Host.reduceAdd x v reducesTo_S10000x128_S10000_d1 h_S_) : (⟨S10000x128, .f32⟩ : BufTy).Contents (Elt F) → (⟨S_, .f32⟩ : BufTy).Contents (Elt F) → (⟨S10000, .f32⟩ : BufTy).Contents (Elt F)),
    StableHlo.unary main_v3 main_v4 (broadcastInDim S10000x1 ![0] bcast_S10000_S10000x1_0 : (⟨S10000, .f32⟩ : BufTy).Contents (Elt F) → (⟨S10000x1, .f32⟩ : BufTy).Contents (Elt F)),
    StableHlo.nullary main_cst_0 (constant S_ .f32 0x43000000#32),
    StableHlo.unary main_cst_0 main_v5 (broadcastInDim S10000x1 ![] bcast_S_S10000x1 : (⟨S_, .f32⟩ : BufTy).Contents (Elt F) → (⟨S10000x1, .f32⟩ : BufTy).Contents (Elt F)),
    StableHlo.binary main_v4 main_v5 main_v6 (Host.divf : (⟨S10000x1, .f32⟩ : BufTy).Contents (Elt F) → (⟨S10000x1, .f32⟩ : BufTy).Contents (Elt F) → (⟨S10000x1, .f32⟩ : BufTy).Contents (Elt F)),
    StableHlo.nullary main_c (constantI S_ 32 0#32),
    StableHlo.TRef.nullary main_call0.cst (constant S_ .f32 0x00000000#32),
    StableHlo.TRef.binary (.of main_v2 : StableHlo.TRef sig ⟨S10000x128, .f32⟩) main_call0.cst main_call0.v0 (fun x v => Host.reduceAdd x v reducesTo_S10000x128_S10000_d1 h_S_),
    StableHlo.TRef.unary main_call0.v0 main_call0.v1 (broadcastInDim S10000x1 ![0] bcast_S10000_S10000x1_0),
    StableHlo.TRef.nullary main_call0.cst_0 (constant S_ .f32 0x43000000#32),
    StableHlo.TRef.unary main_call0.cst_0 main_call0.v2 (broadcastInDim S10000x1 ![] bcast_S_S10000x1),
    StableHlo.TRef.binary main_call0.v1 main_call0.v2 main_call0.v3 Host.divf,
    StableHlo.TRef.unary main_call0.v3 main_call0.v4 (broadcastInDim S10000x128 ![0, 1] bcast_S10000x1_S10000x128_0_1),
    StableHlo.TRef.binary (.of main_v2 : StableHlo.TRef sig ⟨S10000x128, .f32⟩) main_call0.v4 main_call0.v5 subf,
    StableHlo.TRef.binary main_call0.v5 main_call0.v5 main_call0.v6 mulf,
    StableHlo.TRef.unary (.of main_c : StableHlo.TRef sig ⟨S_, .i32⟩) main_call0.v7 (sitofp .f32),
    StableHlo.TRef.nullary main_call0.cst_1 (constant S_ .f32 0x43000000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S10000x128_S10000_d1 h_S_),
    StableHlo.TRef.unary main_call0.v9 main_call0.v10 (broadcastInDim S10000x1 ![0] bcast_S10000_S10000x1_0),
    StableHlo.TRef.unary main_call0.v8 main_call0.v11 (broadcastInDim S10000x1 ![] bcast_S_S10000x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S10000x1 ![] bcast_S_S10000x1),
    StableHlo.TRef.ternary main_call0.v13 main_call0.v12 main_call0.call0.v1 main_call0.call0.v2 (fun p a b => select (broadcastInDim S10000x1 ![] bcast_S_S10000x1 p) a b),
    StableHlo.unary main_v6 main_v8 (broadcastInDim S10000x128 ![0, 1] bcast_S10000x1_S10000x128_0_1 : (⟨S10000x1, .f32⟩ : BufTy).Contents (Elt F) → (⟨S10000x128, .f32⟩ : BufTy).Contents (Elt F)),
    StableHlo.binary main_v2 main_v8 main_v9 (subf : (⟨S10000x128, .f32⟩ : BufTy).Contents (Elt F) → (⟨S10000x128, .f32⟩ : BufTy).Contents (Elt F) → (⟨S10000x128, .f32⟩ : BufTy).Contents (Elt F)),
    StableHlo.nullary main_cst_1 (constant S_ .f32 0x3727C5AC#32),
    StableHlo.unary main_cst_1 main_v10 (broadcastInDim S10000x1 ![] bcast_S_S10000x1 : (⟨S_, .f32⟩ : BufTy).Contents (Elt F) → (⟨S10000x1, .f32⟩ : BufTy).Contents (Elt F)),
    StableHlo.binary main_v7 main_v10 main_v11 (addf : (⟨S10000x1, .f32⟩ : BufTy).Contents (Elt F) → (⟨S10000x1, .f32⟩ : BufTy).Contents (Elt F) → (⟨S10000x1, .f32⟩ : BufTy).Contents (Elt F)),
    StableHlo.unary main_v11 main_v12 (Host.sqrt : (⟨S10000x1, .f32⟩ : BufTy).Contents (Elt F) → (⟨S10000x1, .f32⟩ : BufTy).Contents (Elt F)),
    StableHlo.unary main_v12 main_v13 (broadcastInDim S10000x128 ![0, 1] bcast_S10000x1_S10000x128_0_1 : (⟨S10000x1, .f32⟩ : BufTy).Contents (Elt F) → (⟨S10000x128, .f32⟩ : BufTy).Contents (Elt F)),
    StableHlo.binary main_v9 main_v13 main_v14 (Host.divf : (⟨S10000x128, .f32⟩ : BufTy).Contents (Elt F) → (⟨S10000x128, .f32⟩ : BufTy).Contents (Elt F) → (⟨S10000x128, .f32⟩ : BufTy).Contents (Elt F)),
    StableHlo.nullary main_cst_2 (constant S_ .f32 0x00000000#32),
    StableHlo.unary main_cst_2 main_v15 (broadcastInDim S10000x128 ![] bcast_S_S10000x128 : (⟨S_, .f32⟩ : BufTy).Contents (Elt F) → (⟨S10000x128, .f32⟩ : BufTy).Contents (Elt F)),
    StableHlo.binary main_v14 main_v15 main_v16 (cmpf .oge : (⟨S10000x128, .f32⟩ : BufTy).Contents (Elt F) → (⟨S10000x128, .f32⟩ : BufTy).Contents (Elt F) → (⟨S10000x128, .i1⟩ : BufTy).Contents (Elt F)),
    StableHlo.nullary main_cst_3 (constant S_ .f32 0x3C23D70A#32),
    StableHlo.unary main_cst_3 main_v17 (broadcastInDim S10000x128 ![] bcast_S_S10000x128 : (⟨S_, .f32⟩ : BufTy).Contents (Elt F) → (⟨S10000x128, .f32⟩ : BufTy).Contents (Elt F)),
    StableHlo.binary main_v17 main_v14 main_v18 (mulf : (⟨S10000x128, .f32⟩ : BufTy).Contents (Elt F) → (⟨S10000x128, .f32⟩ : BufTy).Contents (Elt F) → (⟨S10000x128, .f32⟩ : BufTy).Contents (Elt F)),
    StableHlo.TRef.ternary (.of main_v16 : StableHlo.TRef sig ⟨S10000x128, .i1⟩) (.of main_v14 : StableHlo.TRef sig ⟨S10000x128, .f32⟩) (.of main_v18 : StableHlo.TRef sig ⟨S10000x128, .f32⟩) main_call1.v0 select ]

-- forty-eight binds re-associated: the rewrite under the chain recurses once per statement
set_option maxRecDepth 2048 in
/-- The main function is that line: the helpers' definitions unfolded at their calls, both sides are one chain of
    single operations once the sequencing is re-associated. -/
theorem main_eq (c : Dev nD) : main (F := F) c = seq ops := by
  simp only [main, fn_var.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩

/-- From any memory with zero counters every weakly fair execution of the main function terminates, and every
    buffer ends at the fold of the line over the initial contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefTerm.lean ====
/-
  The reference's result as one term of its arguments.

  The line of operations of the reference writes each intermediate array once; reading the result buffer back
  through the line gives a composition of array operations applied to the three arguments. This module names the
  pieces of that composition (the projected matrix, the row means, the row variances with their guarded division,
  the normalised matrix, the rectifier) and shows that the result buffer ends at their composition, the arguments
  unchanged.
-/
import proofs.«144229_g49108656063244_cont_8to1_c_419_7_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- P = (A·X)·Wᵀ: the product of the adjacency matrix and the features, times the transposed weights. -/
def projT (A : FVec F S10000x10000 .f32) (X : FVec F S10000x128 .f32) (W : FVec F S128x128 .f32) :
    FVec F S10000x128 .f32 :=
  Host.dotGeneral dot_S10000x128_S128x128_S10000x128_1_0_0_1_n_n none
    (Host.dotGeneral dot_S10000x10000_S10000x128_S10000x128_1_0_0_1_n_n none A X)
    (transpose S128x128 [1, 0] W transposes_S128x128_S128x128_1_0)

/-- The sums of the rows of a matrix, laid out as an [N, 1] column. -/
def rowSumCol (Z : FVec F S10000x128 .f32) : FVec F S10000x1 .f32 :=
  broadcastInDim S10000x1 ![0] bcast_S10000_S10000x1_0
    (Host.reduceAdd Z (constant S_ .f32 0x00000000#32) reducesTo_S10000x128_S10000_d1 h_S_)

/-- An [N, 1] column repeated across the 128 columns. -/
def spread (w : FVec F S10000x1 .f32) : FVec F S10000x128 .f32 :=
  broadcastInDim S10000x128 ![0, 1] bcast_S10000x1_S10000x128_0_1 w

/-- The means of the rows, as a column: the row sums over 128. -/
def meanCol (P : FVec F S10000x128 .f32) : FVec F S10000x1 .f32 :=
  Host.divf (rowSumCol P) (broadcastInDim S10000x1 ![] bcast_S_S10000x1 (constant S_ .f32 0x43000000#32))

/-- The variance's divisor as the program computes it: 128 minus the integer 0 converted to a float. -/
def divisor : FVec F S_ .f32 :=
  subf (constant S_ .f32 0x43000000#32) (sitofp .f32 (constantI S_ 32 0#32))

/-- The variances of the rows, as a column: where the divisor is positive, the row sums of the squared deviations
    from the mean over the divisor; elsewhere the not-a-number word. -/
def varCol (P : FVec F S10000x128 .f32) : FVec F S10000x1 .f32 :=
  select (broadcastInDim S10000x1 ![] bcast_S_S10000x1 (cmpf .ogt (divisor (F := F)) (constant S_ .f32 0x00000000#32)))
    (Host.divf (rowSumCol (mulf (subf P (spread (meanCol P))) (subf P (spread (meanCol P)))))
      (broadcastInDim S10000x1 ![] bcast_S_S10000x1 divisor))
    (broadcastInDim S10000x1 ![] bcast_S_S10000x1 (id (constant S_ .f32 0x7FC00000#32)))

/-- The normalised matrix: the deviation from the row mean over the square root of the row variance plus the
    offset. -/
def normT (P : FVec F S10000x128 .f32) : FVec F S10000x128 .f32 :=
  Host.divf (subf P (spread (meanCol P)))
    (spread (Host.sqrt (addf (varCol P)
      (broadcastInDim S10000x1 ![] bcast_S_S10000x1 (constant S_ .f32 0x3727C5AC#32)))))

/-- The leaky rectifier of a matrix: an entry that is at least zero is kept, any other is multiplied by the slope. -/
def leakyT (Z : FVec F S10000x128 .f32) : FVec F S10000x128 .f32 :=
  select (cmpf .oge Z (broadcastInDim S10000x128 ![] bcast_S_S10000x128 (constant S_ .f32 0x00000000#32))) Z
    (mulf (broadcastInDim S10000x128 ![] bcast_S_S10000x128 (constant S_ .f32 0x3C23D70A#32)) Z)

/-- What the reference computes from its three arguments. -/
def refTerm (A : FVec F S10000x10000 .f32) (X : FVec F S10000x128 .f32) (W : FVec F S128x128 .f32) :
    FVec F S10000x128 .f32 :=
  leakyT (normT (projT A X W))

/-- The result buffer after the line is the composed term of the arguments' initial contents: each operation's value
    read at its own buffer and every other buffer passed through, the stored-and-read-back transports removed. -/
theorem out_eq (V : Valuation τ sig (Elt F)) :
    after ops V (main_v19 : DevRef τ sig)
      = refTerm (V (main_arg0 : DevRef τ sig)) (V (main_arg1 : DevRef τ sig)) (V (main_arg2 : DevRef τ sig)) := by
  after_results_simp
  simp only [Cert.LibTypedRefCasts.ofBuf_toBuf, TRef.ofBuf, TRef.toBuf, cast_eq]
  rfl

/-- No operation of the line writes an argument's buffer. -/
theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

/-- From any memory with zero counters every weakly fair execution of the main function terminates with the result
    buffer at the composed term of the arguments' initial contents and the arguments unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v19)
          = refTerm (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v19).trans (out_eq _), (h c main_arg0).trans (arg0_eq _),
      (h c main_arg1).trans (arg1_eq _), (h c main_arg2).trans (arg2_eq _)⟩)
    (run_main m ρ)

end Cert.ReferenceIdeal.RefRun

end
-- ==== Proof.LibPlainDot.lean ====
/-
  A plain matrix product computed as a host dot_general, read at an entry, at the exact (extended-real) values.

  For an m×k matrix A and a k×n matrix B the product's (a, b) entry is the sum over the contracted coordinate c of
  A(a, c) · B(c, b), whatever the schedule key: the contraction's index set has one axis, of extent k, and is
  re-indexed by its one coordinate. The twin, for the host's product, of the same reading of a matmul into a zero
  accumulator.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the host's plain product of an m×k by a k×n matrix is `∑ c, A (a, c) * B (c, b)` on the
    extended reals. -/
theorem dotGeneral_plain_apply {m k n : Nat} {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b) = ∑ c : Fin k, A (ix2 a c) * B (ix2 c b) := by
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

/-- The same for the schedule key of one device's data, as a host program applies it. -/
theorem hostDotGeneral_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    Host.dotGeneral (DotDims.plain m k n) prec A B (ix2 a b) = ∑ c : Fin k, A (ix2 a c) * B (ix2 c b) :=
  dotGeneral_plain_apply prec .single A B a b

end Idealize.ShloMosaic.ValueIdx

end
-- ==== Proof.RefValue.lean ====
/-
  The reference's result, entry by entry, is the graph-convolution layer of its three arguments.

  The reference's result is a composition of whole-array operations: P = (A·X)·Wᵀ, the row means and row variances
  of P as columns, the rows normalised, the leaky rectifier. Read at an entry (r, j), each whole-array operation is
  the scalar operation on the operands' entries, a column repeated across the columns reads the column at row r, a
  scalar repeated reads the scalar, a row sum is the sum of the row's 128 entries, and a matrix product's entry is the
  sum of products over the contracted coordinate. So the entry is a function of row r of P alone: the row's entry j
  minus the row's mean, over the square root of the row's variance plus the offset, then rectified — the layer as
  the specification states it.

  The variance's divisor deserves a word. The program computes it as 128 minus the integer 0 converted to a float,
  and guards the division: where the divisor is not positive the quotient is replaced by a not-a-number word. On the
  extended reals the converted integer 0 is 0, so the divisor is the real 128, it is positive, and the guard always
  selects the quotient: the replacement word is never read.
-/
import proofs.«144229_g49108656063244_cont_8to1_c_419_7_alg».proof.Proof.RefTerm
import proofs.«144229_g49108656063244_cont_8to1_c_419_7_alg».proof.Proof.Spec
import proofs.«144229_g49108656063244_cont_8to1_c_419_7_alg».proof.Proof.LibRowWise
import proofs.«144229_g49108656063244_cont_8to1_c_419_7_alg».proof.Proof.LibPlainDot
import Idealize.ShloMosaic.Lib.ValueLayout
import Idealize.ShloMosaic.PureOps.Ideal.Laws

noncomputable section

open scoped BigOperators

namespace Cert.ReferenceIdeal.RefValue

open Cert.ReferenceIdeal Cert.ReferenceIdeal.Gen Cert.ReferenceIdeal.RefRun Cert.GraphConv
open Idealize.ShloMosaic Idealize.ShloMosaic.TcCoe Idealize.SL.Sem Idealize.ShloMosaic.StableHlo Idealize.ShloMosaic.ValueIdx

/-! ## Scalars -/

/-- The f32 word 0x43000000 is the real 128: exponent field 134, bias 127, significand 1, so 2²³ · 2^(134 − 150). -/
theorem wCount_eq : wCount = ((128 : ℝ) : EReal) := by
  simp [Ideal.ofBits, Ideal.ieee, -EReal.coe_mul]; norm_num

/-- 128 is positive. -/
theorem wCount_pos : (0 : EReal) < wCount := by
  rw [wCount_eq]
  exact EReal.coe_pos.mpr (by norm_num)

/-- A scalar repeated over an array reads, at every index, the scalar. -/
theorem scalarSpread_apply {α : Type} {t : Shape} (g : S_.BroadcastsInDim t (![] : Fin 0 → Fin t.rank))
    (x : S_.Idx → α) (j : t.Idx) (k : S_.Idx) : broadcastInDim t ![] g x j = x k :=
  broadcastInDim_apply _ g x j k (fun a => a.elim0)

/-- The variance's divisor, 128 minus the integer 0 converted, is 128. -/
theorem divisor_apply (k : S_.Idx) : divisor (F := Ideal) k = wCount := by
  show Ideal.ofBits .f32 0x43000000#32 - (((0#32 : BitVec 32).toInt : ℝ) : EReal) = _
  have h0 : (((0#32 : BitVec 32).toInt : ℝ) : EReal) = 0 := by
    rw [show (0#32 : BitVec 32).toInt = 0 by decide]
    norm_num
  rw [h0, sub_zero]

/-! ## One row of a matrix P -/

/-- The column of row sums reads, at row r, the sum of the row's entries. -/
theorem rowSumCol_apply (Z : FVec Ideal S10000x128 .f32) (r : Fin 10000) :
    rowSumCol Z (ix2 r (0 : Fin 1)) = ∑ k : Fin 128, Z (ix2 r k) := by
  unfold rowSumCol
  rw [Cert.RowWise.colLift_apply]
  exact Cert.RowWise.hostRowSum_apply Z reducesTo_S10000x128_S10000_d1 (by decide) h_S_ r

/-- The column of means reads, at row r, the mean of the row. -/
theorem meanCol_apply (P : FVec Ideal S10000x128 .f32) (r : Fin 10000) :
    meanCol P (ix2 r (0 : Fin 1)) = rowMean (fun k : Fin 128 => P (ix2 r k)) := by
  unfold meanCol rowMean
  show Ideal.div (rowSumCol P (ix2 r (0 : Fin 1)))
      (broadcastInDim S10000x1 ![] bcast_S_S10000x1 (constant (F := Ideal) S_ .f32 0x43000000#32) (ix2 r (0 : Fin 1))) = _
  rw [rowSumCol_apply, scalarSpread_apply _ _ _ (fun a => a.elim0)]
  rfl

/-- The deviation from the row mean, at (r, k). -/
theorem dev_apply (P : FVec Ideal S10000x128 .f32) (r : Fin 10000) (k : Fin 128) :
    subf P (spread (meanCol P)) (ix2 r k) = P (ix2 r k) - rowMean (fun k : Fin 128 => P (ix2 r k)) := by
  show P (ix2 r k) - spread (meanCol P) (ix2 r k) = _
  unfold spread
  rw [Cert.RowWise.colSpread_apply, meanCol_apply]

/-- The guard of the variance's division holds: the divisor is positive. -/
theorem guard_apply (r : Fin 10000) :
    broadcastInDim S10000x1 ![] bcast_S_S10000x1
      (cmpf .ogt (divisor (F := Ideal)) (constant S_ .f32 0x00000000#32)) (ix2 r (0 : Fin 1)) = 1#1 := by
  rw [scalarSpread_apply _ _ _ (fun a => a.elim0)]
  show Ideal.cmp .ogt (divisor (F := Ideal) _) (Ideal.ofBits .f32 0x00000000#32) = 1#1
  rw [divisor_apply, Ideal.ofBits_zero_f32]
  simp [Ideal.cmp, wCount_pos]

/-- The column of variances reads, at row r, the variance of the row: the guard selects the quotient. -/
theorem varCol_apply (P : FVec Ideal S10000x128 .f32) (r : Fin 10000) :
    varCol P (ix2 r (0 : Fin 1)) = rowVar (fun k : Fin 128 => P (ix2 r k)) := by
  unfold varCol
  rw [select_apply, guard_apply, select_one]
  show Ideal.div (rowSumCol (F := Ideal) _ (ix2 r (0 : Fin 1)))
      (broadcastInDim S10000x1 ![] bcast_S_S10000x1 (divisor (F := Ideal)) (ix2 r (0 : Fin 1))) = _
  rw [rowSumCol_apply, scalarSpread_apply _ _ _ (fun a => a.elim0), divisor_apply]
  unfold rowVar
  refine congrArg (fun s => Ideal.div s wCount) (Finset.sum_congr rfl fun k _ => ?_)
  show subf P (spread (meanCol P)) (ix2 r k) * subf P (spread (meanCol P)) (ix2 r k) = _
  rw [dev_apply]

/-- The normalised matrix at (r, j): the deviation over the square root of the variance plus the offset. -/
theorem normT_apply (P : FVec Ideal S10000x128 .f32) (r : Fin 10000) (j : Fin 128) :
    normT P (ix2 r j)
      = Ideal.div (P (ix2 r j) - rowMean (fun k : Fin 128 => P (ix2 r k)))
          (Ideal.sqrt (rowVar (fun k : Fin 128 => P (ix2 r k)) + wEps)) := by
  unfold normT
  show Ideal.div (subf P (spread (meanCol P)) (ix2 r j))
      (spread (Host.sqrt (addf (varCol P)
        (broadcastInDim S10000x1 ![] bcast_S_S10000x1 (constant (F := Ideal) S_ .f32 0x3727C5AC#32)))) (ix2 r j)) = _
  rw [dev_apply]
  unfold spread
  rw [Cert.RowWise.colSpread_apply]
  show Ideal.div _ (Ideal.sqrt (varCol P (ix2 r (0 : Fin 1))
      + broadcastInDim S10000x1 ![] bcast_S_S10000x1 (constant (F := Ideal) S_ .f32 0x3727C5AC#32) (ix2 r (0 : Fin 1)))) = _
  rw [varCol_apply, scalarSpread_apply _ _ _ (fun a => a.elim0)]
  rfl

/-- The rectifier of a matrix, at an entry, is the rectifier of the entry. -/
theorem leakyT_apply (Z : FVec Ideal S10000x128 .f32) (i : S10000x128.Idx) : leakyT Z i = leaky (Z i) := by
  unfold leakyT leaky
  show Scalar.select (Ideal.cmp .oge (Z i)
        (broadcastInDim S10000x128 ![] bcast_S_S10000x128 (constant (F := Ideal) S_ .f32 0x00000000#32) i)) (Z i)
      (broadcastInDim S10000x128 ![] bcast_S_S10000x128 (constant (F := Ideal) S_ .f32 0x3C23D70A#32) i * Z i) = _
  rw [scalarSpread_apply _ _ _ (fun a => a.elim0), scalarSpread_apply _ _ _ (fun a => a.elim0)]
  rfl

/-! ## The projected matrix -/

/-- P = (A·X)·Wᵀ at (r, j): the sum over c of (the sum over k of A(r, k) · X(k, c)) times W(j, c). -/
theorem projT_apply (A : FVec Ideal S10000x10000 .f32) (X : FVec Ideal S10000x128 .f32) (W : FVec Ideal S128x128 .f32)
    (r : Fin 10000) (j : Fin 128) : projT A X W (ix2 r j) = proj A X W r j := by
  unfold projT proj
  have e1 : dot_S10000x10000_S10000x128_S10000x128_1_0_0_1_n_n = DotDims.plain 10000 10000 128 := rfl
  have e2 : dot_S10000x128_S128x128_S10000x128_1_0_0_1_n_n = DotDims.plain 10000 128 128 := rfl
  rw [e2, e1, hostDotGeneral_plain_apply]
  refine Finset.sum_congr rfl fun c _ => ?_
  rw [hostDotGeneral_plain_apply, transpose_ix2_apply]

/-! ## The whole -/

/-- The reference's result is the layer's output, as the specification states it. -/
theorem refTerm_eq (A : FVec Ideal S10000x10000 .f32) (X : FVec Ideal S10000x128 .f32) (W : FVec Ideal S128x128 .f32) :
    refTerm A X W = outR A X W := by
  funext i
  obtain ⟨r, j, rfl⟩ : ∃ (r : Fin 10000) (j : Fin 128), i = ix2 r j := ⟨i 0, i 1, eq_ix2 i⟩
  rw [outR_apply]
  unfold refTerm normR
  rw [leakyT_apply, normT_apply]
  have hrow : (fun k : Fin 128 => projT A X W (ix2 r k)) = proj A X W r := funext fun k => projT_apply A X W r k
  rw [hrow, projT_apply]

/-- From any memory with zero counters every weakly fair execution of the reference terminates with its result
    buffer at the layer's output of the three arguments' initial contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v19)
          = Cert.GraphConv.outR (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (refTerm_eq _ _ _), (h c).2⟩) (run_term m ρ)

end Cert.ReferenceIdeal.RefValue

end
-- ==== Proof.lean ====
/-
  The layer  out = leaky (layernorm ((A·X)·Wᵀ))  computed by a row-tiled kernel, against its array reference.

  The kernel walks the 10000 rows of the adjacency matrix A in 25 steps of 400 rows. At step t it reads two blocks of
  200 rows of A (rows 400·t … 400·t + 199 and 400·t + 200 … 400·t + 399 — two windows on the one array A, each reading
  it under half of its share), the whole of X and the whole of W, and writes the 400 corresponding rows of the result.
  Row r of the result depends on row r of A alone:
      o_j = Σ_c (Σ_k A(r,k)·X(k,c))·W(j,c),   μ = (Σ_j o_j)/128,   v = (Σ_j (o_j − μ)²)/128,
      z_j = (o_j − μ)·rsqrt(v + ε)  in the kernel,   z_j = (o_j − μ)/sqrt(v + ε)  in the reference,
      out_j = z_j if z_j ≥ 0, else s·z_j.
  * Frames: each program runs to the end, faults nowhere and leaves A, X, W as they were (the kernel: every window on
    an argument is read-only; the reference: a straight line of array operations writing fresh arrays).
  * Values: the kernel's result array is `outK A X W` (each block's two halves are the rows they stand for, and the 25
    blocks cover the array); the reference's is `outR A X W` (its divisor 128 − 0 is 128 and positive, so its guarded
    quotient is the quotient).
  * The two agree where A, X, W are finite, which the precondition says: then every o_j is real, v ≥ 0 is real and
    ε > 0, so v + ε is a positive real, where multiplying by rsqrt and dividing by sqrt are one operation.
  * The idealization changed no operation of the kernel: nothing to preserve.
-/
import proofs.«144229_g49108656063244_cont_8to1_c_419_7_alg».proof.Defs
import proofs.«144229_g49108656063244_cont_8to1_c_419_7_alg».proof.Proof.Gen.Kernel
import proofs.«144229_g49108656063244_cont_8to1_c_419_7_alg».proof.Proof.Gen.KernelIdeal
import proofs.«144229_g49108656063244_cont_8to1_c_419_7_alg».proof.Proof.Gen.ReferenceIdeal
import proofs.«144229_g49108656063244_cont_8to1_c_419_7_alg».proof.Proof.Gen.Pre_finite_inputs
import proofs.«144229_g49108656063244_cont_8to1_c_419_7_alg».proof.Proof.BitsRun
import proofs.«144229_g49108656063244_cont_8to1_c_419_7_alg».proof.Proof.KernelBlocks
import proofs.«144229_g49108656063244_cont_8to1_c_419_7_alg».proof.Proof.Bridge
import proofs.«144229_g49108656063244_cont_8to1_c_419_7_alg».proof.Proof.Finite
import proofs.«144229_g49108656063244_cont_8to1_c_419_7_alg».proof.Proof.RefValue
import Idealize.ShloMosaic.Adequacy
import Idealize.ShloMosaic.Init

noncomputable section

namespace Cert.Proof

open Idealize.ShloMosaic Idealize.SL.Sem

/-- The word-level kernel runs to the end, faults nowhere and leaves its three arguments as they were. -/
theorem frame_bits : Cert.frame_Kernel := fun m ρ _ => Cert.Kernel.Hand.frame m ρ

/-- So does the kernel read at exact values. -/
theorem frame_ideal : Cert.frame_KernelIdeal := fun m ρ _ => Cert.KernelIdeal.Hand.frame m ρ

/-- The reference is a straight line of array operations: it runs to the end and writes none of its arguments. -/
theorem frame_ref : Cert.frame_ReferenceIdeal := fun m ρ _ =>
  (θ_run Cert.ReferenceIdeal.defs _ _).mono (fun _ h c => (h c).2) (Cert.ReferenceIdeal.RefValue.run m ρ)

/-- The idealization rewrote no operation of the kernel, so there is nothing to preserve. -/
theorem preserves : Cert.preserves_Kernel_KernelIdeal := trivial

/-- From memories that agree on the arguments, the kernel at exact values ends with the layer's output in its own
    form (deviation times reciprocal square root), the reference with its form (deviation divided by square root);
    the arguments are real by the precondition, and on real arguments the two forms are one array. -/
theorem algebraic : Cert.algebraic_KernelIdeal_ReferenceIdeal := by
  intro m ρ m' ρ' hpre hagree
  refine ⟨_, Cert.KernelIdeal.Hand.run_value m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2]
  obtain ⟨hA, hX, hW⟩ := Cert.Pre_finite_inputs.Hand.real_of_pre _ _ _ (hpre c)
  exact (Cert.GraphConv.outK_eq_outR _ _ _ hA hX hW).symm

theorem claim : Cert.Claim :=
  ⟨Cert.Kernel.Gen.facts, Cert.KernelIdeal.Gen.facts, Cert.ReferenceIdeal.Gen.facts, Cert.Pre_finite_inputs.Gen.facts,
    frame_bits, frame_ideal, frame_ref, preserves, algebraic⟩

end Cert.Proof

end
